-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x256 .f32) (main_arg6 : FVec F S64 .f32) (main_arg7 : FVec F S64x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S64x256 .f32) (main_arg6 : FVec F S64 .f32) (main_arg7 : FVec F S64x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S128x256 : Shape := ⟨2, ![128, 256]⟩
abbrev S256x64 : Shape := ⟨2, ![256, 64]⟩
abbrev S1x256 : Shape := ⟨2, ![1, 256]⟩
abbrev S100000x256 : Shape := ⟨2, ![100000, 256]⟩
abbrev S100000x64 : Shape := ⟨2, ![100000, 64]⟩
abbrev S4000x128 : Shape := ⟨2, ![4000, 128]⟩
abbrev S4000x1 : Shape := ⟨2, ![4000, 1]⟩
abbrev S4000x256 : Shape := ⟨2, ![4000, 256]⟩
abbrev S4000x64 : Shape := ⟨2, ![4000, 64]⟩
abbrev S640000x64 : Shape := ⟨2, ![640000, 64]⟩
abbrev S1x64 : Shape := ⟨2, ![1, 64]⟩
abbrev S4000 : Shape := ⟨1, ![4000]⟩

abbrev nBuf : Space → Nat
  | .hbm => 65
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S100000x128, .f32⟩
  | .hbm, ⟨37, _⟩ => ⟨S640000x1, .i32⟩
  | .hbm, ⟨38, _⟩ => ⟨S100000x128, .f32⟩
  | .hbm, ⟨39, _⟩ => ⟨S256x128, .bf16⟩
  | .hbm, ⟨40, _⟩ => ⟨S128x256, .bf16⟩
  | .hbm, ⟨41, _⟩ => ⟨S256x128, .bf16⟩
  | .hbm, ⟨42, _⟩ => ⟨S128x256, .bf16⟩
  | .hbm, ⟨43, _⟩ => ⟨S64x256, .bf16⟩
  | .hbm, ⟨44, _⟩ => ⟨S256x64, .bf16⟩
  | .hbm, ⟨45, _⟩ => ⟨S1x256, .f32⟩
  | .hbm, ⟨46, _⟩ => ⟨S100000x256, .f32⟩
  | .hbm, ⟨47, _⟩ => ⟨S100000x64, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x64, .f32⟩
  | .hbm, ⟨57, _⟩ => ⟨S_, .f32⟩
  | .hbm, ⟨58, _⟩ => ⟨S100000x64, .f32⟩
  | .hbm, ⟨59, _⟩ => ⟨S640000x1, .i32⟩
  | .hbm, ⟨60, _⟩ => ⟨S100000x64, .f32⟩
  | .hbm, ⟨61, _⟩ => ⟨S64x256, .bf16⟩
  | .hbm, ⟨62, _⟩ => ⟨S256x64, .bf16⟩
  | .hbm, ⟨63, _⟩ => ⟨S1x64, .f32⟩
  | .hbm, ⟨64, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256x64, .bf16⟩
  | .local _ .vmem, ⟨10, _⟩ => ⟨S4000x256, .f32⟩
  | .local _ .vmem, ⟨11, _⟩ => ⟨S4000x256, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x256, .f32⟩
  | .local _ .vmem, ⟨17, _⟩ => ⟨S4000x256, .f32⟩
  | .local _ .vmem, ⟨18, _⟩ => ⟨S4000x1, .f32⟩
  | .local _ .vmem, ⟨19, _⟩ => ⟨S4000x1, .f32⟩
  | .local _ .vmem, ⟨20, _⟩ => ⟨S256x64, .bf16⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S100000x128 : S_.BroadcastsInDim S100000x128 (![] : Fin 0 → Fin S100000x128.rank)
  bitsLt_bf16_f32 : FTy.bits .bf16 < FTy.bits .f32
  transposes_S256x128_S128x256_1_0 : S256x128.Transposes [1, 0] S128x256
  transposes_S64x256_S256x64_1_0 : S64x256.Transposes [1, 0] S256x64
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  shapeCasts_S4000x256_S4000x256 : S4000x256.ShapeCasts S4000x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x256_S4000x256_1_0_0_1_n_n_wf : DotDims.WF S4000x128 S128x256 S4000x256 [1] [0] [0] [1] [] []
  dot_S4000x256_S256x64_S4000x64_1_0_0_1_n_n_wf : DotDims.WF S4000x256 S256x64 S4000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S100000x256.size a
  hwx0_7 : ∀ i : grid0.Coords, EltTy.bits .f32 = 32 ∨ (Rect.block (s := S100000x256) S4000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S4000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v39) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_0) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S128x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x256, .f32⟩
  | .hbm, ⟨58, _⟩ => ⟨S_, .f32⟩
  | .hbm, ⟨59, _⟩ => ⟨S100000x256, .f32⟩
  | .hbm, ⟨60, _⟩ => ⟨S640000x1, .i32⟩
  | .hbm, ⟨61, _⟩ => ⟨S100000x256, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S100000, .f32⟩
  | .hbm, ⟨66, _⟩ => ⟨S640000x1, .i32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x256, .f32⟩
  | .hbm, ⟨74, _⟩ => ⟨S100000x256, .f32⟩
  | .hbm, ⟨75, _⟩ => ⟨S256x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S256x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S100000x64, .f32⟩
  | .hbm, ⟨97, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call3_cst : Ref sig .tc := ⟨.hbm, 83, rfl⟩
abbrev main_call3_v0 : Ref sig .tc := ⟨.hbm, 84, rfl⟩
abbrev main_call3_cst_0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_cst_1 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_v57 : Ref sig .tc := ⟨.hbm, 97, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x64_S100000x64_1_0_0_1_n_n_wf : DotDims.WF S100000x256 S256x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The idealized kernel's whole run, with its result named.

  The program is two pipelined regions among four stretches of host operations. Its run is the chain of those six
  segments from the launch memory: after every stretch each buffer holds the stretch's operations applied to what the
  stretch found, after every region each of the region's arrays holds what the pipeline's write-backs leave and every
  other buffer what the region found. The last boundary's contents are `W6`; the result buffer is read there, beside
  the eight argument arrays, which end as launched.
-/
import proofs.«117623_j21311627723552_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer at the last boundary's
    contents and the arguments unchanged. -/
theorem run_value : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Spec.lean ====
/-
  A two-layer mean-aggregation graph network, entry by entry over the extended reals.

  Nodes are `Fin N`, edges `Fin E`. Edge `e` carries the row `ρ e` of a table to every node `p` with `δ e = p`
  (`nbrSum`). A layer takes the neighbour sum divided by a per-node count `dc p`, multiplies it by one weight matrix,
  adds a bias and the node's own row times a second weight matrix. The first layer ends in a maximum with a constant,
  the second in a row-wise log-softmax.

  Two arrangements of the same numbers are stated here and proved equal:
  * dividing by the count (`hiddenR`, `logitsR`) against multiplying by its reciprocal `inv p = one / dc p`
    (`hiddenK`, `logitsA`): equal whenever the count is a nonzero real, whatever the other entries are;
  * aggregating the hidden rows and then projecting them (`logitsR`) against projecting every node's hidden row first
    and aggregating the projections (`logitsA` over `nbrSum` of `proj`): a finite sum pulled through a product and
    two finite sums exchanged, which over the extended reals needs every entry involved to be a real number.
-/
import Idealize.ShloMosaic.PureOps.Ideal
import Idealize.ShloMosaic.PureOps.Ideal.Laws
import proofs.«117623_j21311627723552_2_alg».proof.Proof.LibFinite

noncomputable section

namespace Cert.Sage

open Idealize.ShloMosaic Idealize.ShloMosaic.LibFinite
open scoped BigOperators

variable {N E A B C : ℕ}

/-! ## The functions -/

/-- The sum, over the edges arriving at node `p`, of entry `k` of the table row each edge carries. -/
def nbrSum (δ : Fin E → ℤ) (ρ : Fin E → Fin N) (T : Fin N → Fin C → EReal) (p : Fin N) (k : Fin C) : EReal :=
  ∑ e : Fin E, if δ e = (p.val : ℤ) then T (ρ e) k else 0

/-- The hidden layer with the neighbour sum `S` DIVIDED by the count: max((S/dc)·Waᵀ + b + X·Wrᵀ, z). -/
def hiddenR (S X : Fin N → Fin A → EReal) (dc : Fin N → EReal) (Wa Wr : Fin B → Fin A → EReal) (b : Fin B → EReal)
    (z : EReal) (p : Fin N) (j : Fin B) : EReal :=
  max ((∑ k, Ideal.div (S p k) (dc p) * Wa j k + b j) + ∑ k, X p k * Wr j k) z

/-- The hidden layer with the neighbour sum MULTIPLIED by the count's reciprocal, the bias added last. -/
def hiddenK (S X : Fin N → Fin A → EReal) (inv : Fin N → EReal) (Wa Wr : Fin B → Fin A → EReal) (b : Fin B → EReal)
    (z : EReal) (p : Fin N) (j : Fin B) : EReal :=
  max (((∑ k, (S p k * inv p) * Wa j k) + ∑ k, X p k * Wr j k) + b j) z

/-- Every node's hidden row times a weight matrix. -/
def proj (H : Fin N → Fin B → EReal) (W : Fin C → Fin B → EReal) (p : Fin N) (q : Fin C) : EReal :=
  ∑ k, H p k * W q k

/-- The second layer before its softmax: aggregate the hidden rows, divide, then project. -/
def logitsR (H : Fin N → Fin B → EReal) (δ : Fin E → ℤ) (ρ : Fin E → Fin N) (dc : Fin N → EReal)
    (Wa Wr : Fin C → Fin B → EReal) (b : Fin C → EReal) (p : Fin N) (q : Fin C) : EReal :=
  (∑ k, Ideal.div (nbrSum δ ρ H p k) (dc p) * Wa q k + b q) + ∑ k, H p k * Wr q k

/-- The second layer before its softmax from an already aggregated table `Sm`, scaled by the reciprocal count. -/
def logitsA (Sm : Fin N → Fin C → EReal) (H : Fin N → Fin B → EReal) (inv : Fin N → EReal)
    (Wr : Fin C → Fin B → EReal) (b : Fin C → EReal) (p : Fin N) (q : Fin C) : EReal :=
  (Sm p q * inv p + ∑ k, H p k * Wr q k) + b q

/-- The largest entry of a row, as the fold of `max` from the word of minus infinity. -/
def rowMax (z : Fin C → EReal) : EReal :=
  (Finset.univ : Finset (Fin C)).fold max (Ideal.ofBits .f32 0xFF800000#32) z

/-- Row-wise log-softmax: (z − max z) − log Σ exp(z − max z). -/
def logSoftmax (z : Fin C → EReal) (q : Fin C) : EReal :=
  (z q - rowMax z) - Ideal.log (∑ k, Ideal.exp (z k - rowMax z))

/-! ## Dividing by a nonzero real count is multiplying by its reciprocal -/

/-- An extended real that is a nonzero real number. -/
def IsUnitReal (x : EReal) : Prop := ∃ r : ℝ, r ≠ 0 ∧ x = (r : EReal)

theorem IsUnitReal.isReal {x : EReal} (h : IsUnitReal x) : IsReal x := by
  obtain ⟨r, _, rfl⟩ := h; exact ⟨r, rfl⟩

/-- `a · (1 / d) = a / d` for a nonzero real `d` and ANY extended real `a`. -/
theorem mul_inv_eq_div (a d one : EReal) (h1 : one = 1) (hd : IsUnitReal d) : a * Ideal.div one d = Ideal.div a d := by
  obtain ⟨r, hr, rfl⟩ := hd
  rw [h1, Ideal.div_coe hr, Ideal.div_coe hr, one_mul]

/-- The reciprocal of a nonzero real count is a real number. -/
theorem isReal_inv (d one : EReal) (h1 : one = 1) (hd : IsUnitReal d) : IsReal (Ideal.div one d) := by
  obtain ⟨r, hr, rfl⟩ := hd
  rw [h1, Ideal.div_coe hr, one_mul]; exact ⟨_, rfl⟩

/-- The two hidden layers are one function when the count is a nonzero real: the quotient is the product with the
    reciprocal entry by entry, and the bias commutes past the second product. -/
theorem hiddenK_eq_hiddenR (S X : Fin N → Fin A → EReal) (dc inv : Fin N → EReal) (one : EReal)
    (Wa Wr : Fin B → Fin A → EReal) (b : Fin B → EReal) (z : EReal)
    (hinv : ∀ p, inv p = Ideal.div one (dc p)) (h1 : one = 1) (hdc : ∀ p, IsUnitReal (dc p)) :
    hiddenK S X inv Wa Wr b z = hiddenR S X dc Wa Wr b z := by
  funext p j
  unfold hiddenK hiddenR
  have e : ∀ k, S p k * inv p = Ideal.div (S p k) (dc p) := fun k => by
    rw [hinv, mul_inv_eq_div _ _ _ h1 (hdc p)]
  simp only [e]
  rw [add_right_comm]

/-- The hidden layer of real entries is real. -/
theorem isReal_hiddenK (S X : Fin N → Fin A → EReal) (inv : Fin N → EReal) (Wa Wr : Fin B → Fin A → EReal)
    (b : Fin B → EReal) (z : EReal) (hS : ∀ p k, IsReal (S p k)) (hX : ∀ p k, IsReal (X p k)) (hi : ∀ p, IsReal (inv p))
    (hWa : ∀ j k, IsReal (Wa j k)) (hWr : ∀ j k, IsReal (Wr j k)) (hb : ∀ j, IsReal (b j)) (hz : IsReal z)
    (p : Fin N) (j : Fin B) : IsReal (hiddenK S X inv Wa Wr b z p j) := by
  unfold hiddenK
  refine IsReal.max _ _ (IsReal.add _ _ (IsReal.add _ _ ?_ ?_) (hb j)) hz
  · exact IsReal.sum _ _ fun k _ => IsReal.mul _ _ (IsReal.mul _ _ (hS p k) (hi p)) (hWa j k)
  · exact IsReal.sum _ _ fun k _ => IsReal.mul _ _ (hX p k) (hWr j k)

/-! ## Aggregating then projecting is projecting then aggregating, over real entries -/

/-- The neighbour sum of a real table is the coercion of the real neighbour sum. -/
theorem nbrSum_coe (δ : Fin E → ℤ) (ρ : Fin E → Fin N) (t : Fin N → Fin C → ℝ) (p : Fin N) (k : Fin C) :
    nbrSum δ ρ (fun r k => (t r k : EReal)) p k = ((∑ e : Fin E, if δ e = (p.val : ℤ) then t (ρ e) k else 0 : ℝ) : EReal) := by
  unfold nbrSum
  rw [coe_sum]
  refine Finset.sum_congr rfl fun e _ => ?_
  split_ifs <;> simp

/-- The neighbour sum of a real table is real. -/
theorem isReal_nbrSum (δ : Fin E → ℤ) (ρ : Fin E → Fin N) (T : Fin N → Fin C → EReal) (hT : ∀ r k, IsReal (T r k))
    (p : Fin N) (k : Fin C) : IsReal (nbrSum δ ρ T p k) := by
  unfold nbrSum
  refine IsReal.sum _ _ fun e _ => ?_
  split_ifs
  · exact hT _ _
  · exact IsReal.zero

/-- Over real entries, the neighbour sum of the projected rows is the projection of the neighbour sums. -/
theorem nbrSum_proj (δ : Fin E → ℤ) (ρ : Fin E → Fin N) (H : Fin N → Fin B → EReal) (W : Fin C → Fin B → EReal)
    (hH : ∀ r k, IsReal (H r k)) (hW : ∀ q k, IsReal (W q k)) (p : Fin N) (q : Fin C) :
    nbrSum δ ρ (proj H W) p q = ∑ k, nbrSum δ ρ H p k * W q k := by
  choose h hh using hH
  choose w hw using hW
  have eH : H = fun r k => (h r k : EReal) := funext fun r => funext fun k => hh r k
  have eP : proj H W = fun r q => ((∑ k, h r k * w q k : ℝ) : EReal) := by
    funext r q'
    unfold proj
    rw [coe_sum]
    exact Finset.sum_congr rfl fun k _ => by rw [hh, hw, EReal.coe_mul]
  rw [eP, nbrSum_coe]
  have eR : ∀ k, nbrSum δ ρ H p k * W q k
      = (((∑ e : Fin E, if δ e = (p.val : ℤ) then h (ρ e) k else 0) * w q k : ℝ) : EReal) := fun k => by
    rw [eH, nbrSum_coe, hw, EReal.coe_mul]
  simp only [eR]
  rw [← coe_sum]
  refine congrArg _ ?_
  simp only [Finset.sum_mul]
  rw [Finset.sum_comm]
  refine Finset.sum_congr rfl fun e _ => ?_
  split_ifs
  · rfl
  · simp

/-- THE SECOND LAYER, BOTH WAYS: projecting each hidden row and aggregating the projections, scaled by the reciprocal
    count, is aggregating the hidden rows, dividing by the count and projecting — for real hidden entries and weights and a
    nonzero real count. -/
theorem logitsA_eq_logitsR (H : Fin N → Fin B → EReal) (δ : Fin E → ℤ) (ρ : Fin E → Fin N) (dc inv : Fin N → EReal)
    (one : EReal) (Wa Wr : Fin C → Fin B → EReal) (b : Fin C → EReal)
    (hH : ∀ r k, IsReal (H r k)) (hWa : ∀ q k, IsReal (Wa q k))
    (hinv : ∀ p, inv p = Ideal.div one (dc p)) (h1 : one = 1) (hdc : ∀ p, IsUnitReal (dc p)) :
    logitsA (nbrSum δ ρ (proj H Wa)) H inv Wr b = logitsR H δ ρ dc Wa Wr b := by
  funext p q
  unfold logitsA logitsR
  rw [add_right_comm]
  refine congrArg (· + _) (congrArg (· + _) ?_)
  rw [nbrSum_proj δ ρ H Wa hH hWa,
    dot_scale _ _ _ (fun k => isReal_nbrSum δ ρ H hH p k) (fun k => hWa q k)
      (by rw [hinv]; exact isReal_inv _ _ h1 (hdc p))]
  refine Finset.sum_congr rfl fun k _ => ?_
  rw [hinv, mul_inv_eq_div _ _ _ h1 (hdc p)]

/-! ## The softmax's maximum -/

/-- The fold of `max` from a starting value is at least that value. -/
theorem rowMax_absorb (z : Fin C → EReal) : max (Ideal.ofBits .f32 0xFF800000#32) (rowMax z) = rowMax z :=
  max_eq_right ((Finset.le_fold_max _).mpr (Or.inl le_rfl))

/-- The log-softmax with the maximum taken once more against the starting value and the sum started from the zero
    word is the same function. -/
theorem logSoftmax_host (z : Fin C → EReal) (q : Fin C) :
    (z q - max (Ideal.ofBits .f32 0xFF800000#32) (rowMax z))
        - Ideal.log (Ideal.ofBits .f32 0x00000000#32 + ∑ k, Ideal.exp (z k - max (Ideal.ofBits .f32 0xFF800000#32) (rowMax z)))
      = logSoftmax z q := by
  unfold logSoftmax
  rw [rowMax_absorb, Ideal.ofBits_zero_f32, zero_add]

end Cert.Sage

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«117623_j21311627723552_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«117623_j21311627723552_2_alg».proof.Proof.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.Body.lean ====
/-
  The two kernel bodies, entry by entry.

  Each body computes its output block from the blocks it loads by matrix products into a zero accumulator, row and
  column broadcasts, pointwise arithmetic and, in the second body, a row maximum and a row sum. Read at entry (p, j) of
  the block over the extended reals (a change of float format is the identity there):
  * the first body's hidden block is max((Σₖ (s·inv)(p,k)·wa(k,j) + Σₖ x(p,k)·wr(k,j)) + b(j), 0);
  * its projected block is Σₖ hidden(p,k)·w(k,q);
  * the second body's block is the log-softmax of the row (sm(p,·)·inv(p) + Σₖ h(p,k)·wr(k,·)) + b(·).
-/
import proofs.«117623_j21311627723552_2_alg».proof.Proof.Gen.KernelIdeal.Skeleton
import proofs.«117623_j21311627723552_2_alg».proof.Proof.Spec
import proofs.«117623_j21311627723552_2_alg».proof.Proof.LibPlainDot
import proofs.«117623_j21311627723552_2_alg».proof.Proof.LibRowF32
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.LibPlainDot Cert.LibColumn Cert.LibRowReduce Cert.LibRowF32 Cert.Sage

/-- The 4000×128 by 128×256 product's dimension numbers are those of a plain matrix product. -/
theorem dot128_eq : dot_S4000x128_S128x256_S4000x256_1_0_0_1_n_n
    = plainDot 4000 128 256 Facts₀.dot_S4000x128_S128x256_S4000x256_1_0_0_1_n_n_wf := rfl
/-- So are the 4000×256 by 256×64 product's. -/
theorem dot256_eq : dot_S4000x256_S256x64_S4000x64_1_0_0_1_n_n
    = plainDot 4000 256 64 Facts₀.dot_S4000x256_S256x64_S4000x64_1_0_0_1_n_n_wf := rfl

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The hidden block at (p, j). -/
theorem hidden_payload (x0 : Vec Ideal S4000x128 .f32) (x2 : Vec Ideal S4000x1 .f32) (x7 : Vec Ideal S4000x128 .f32)
    (x9 x12 : Vec Ideal S128x256 .bf16) (x16 : Vec Ideal S1x256 .f32) (p : Fin 4000) (j : Fin 256) :
    k0_pay1 x0 x2 x7 x9 x12 x16 (ix2 p j)
      = max (((∑ k : Fin 128, (x0 (ix2 p k) * x2 (ix2 p 0)) * x9 (ix2 k j)) + ∑ k : Fin 128, x7 (ix2 p k) * x12 (ix2 k j))
          + x16 (ix2 0 j)) (Ideal.ofBits .f32 0x00000000#32) := by
  unfold k0_pay1
  simp only [maximumf_apply, addf_apply, broadcast_apply, shapeCast_self, matmul]
  rw [dot128_eq, matmul_zero_apply, matmul_zero_apply, broadcastTo_1b_ab_apply]
  simp only [truncf_apply, mulf_apply, broadcastTo_a1_ab_apply]
  rfl

/-- The projected block at (p, q): the hidden block's row p against column q of the weights. -/
theorem proj_payload (x0 : Vec Ideal S4000x128 .f32) (x2 : Vec Ideal S4000x1 .f32) (x7 : Vec Ideal S4000x128 .f32)
    (x9 x12 : Vec Ideal S128x256 .bf16) (x16 : Vec Ideal S1x256 .f32) (x24 : Vec Ideal S256x64 .bf16)
    (p : Fin 4000) (q : Fin 64) :
    k0_pay2 x0 x2 x7 x9 x12 x16 x24 (ix2 p q)
      = ∑ k : Fin 256, k0_pay1 x0 x2 x7 x9 x12 x16 (ix2 p k) * x24 (ix2 k q) := by
  unfold k0_pay2
  simp only [shapeCast_self, matmul]
  rw [dot256_eq, matmul_zero_apply]
  simp only [truncf_apply]

/-- The second body's logits at (p, q): the aggregated block scaled by the reciprocal-count column, plus the hidden
    block's row against the weights' column, plus the bias row. -/
theorem logits_payload (x0 : Vec Ideal S4000x64 .f32) (x2 : Vec Ideal S4000x1 .f32) (x6 : Vec Ideal S4000x256 .f32)
    (x9 : Vec Ideal S256x64 .bf16) (x13 : Vec Ideal S1x64 .f32) (p : Fin 4000) (q : Fin 64) :
    (addf (addf (mulf x0 (broadcastTo S4000x64 x2 broadcasts_S4000x1_S4000x64))
        (matmul (φ₂ := .bf16) dot_S4000x256_S256x64_S4000x64_1_0_0_1_n_n none (truncf .bf16 x6 bitsLt_bf16_f32) x9
          (constant (F := Ideal) S4000x64 .f32 0x00000000#32)))
      (broadcastTo S4000x64 x13 broadcasts_S1x64_S4000x64)) (ix2 p q)
      = (x0 (ix2 p q) * x2 (ix2 p 0) + ∑ k : Fin 256, x6 (ix2 p k) * x9 (ix2 k q)) + x13 (ix2 0 q) := by
  simp only [addf_apply, mulf_apply, matmul]
  rw [dot256_eq, matmul_zero_apply, broadcastTo_1b_ab_apply, broadcastTo_a1_ab_apply]
  simp only [truncf_apply]

/-- The row-wise log-softmax as the vector unit computes it on a 4000×64 block `Z` (row maximum kept as a column and
    spread back, row sum of exponentials likewise), read at (p, q). -/
theorem softmax_tail (Z : FVec Ideal S4000x64 .f32) (hf : FKind.Formats .f32)
    (hm : (0xFF800000#32 : BitVec 32) = 0xFF800000#32) (hs : (0x00000000#32 : BitVec 32) = 0x00000000#32)
    (p : Fin 4000) (q : Fin 64) :
    (subf (subf Z (broadcastTo S4000x64 (shapeCast S4000x1
          (multiReduction .maximumf [1] S4000 Z 0xFF800000#32 reduces_S4000x64_S4000 hf hm) shapeCasts_S4000_S4000x1)
          broadcasts_S4000x1_S4000x64))
      (broadcastTo S4000x64 (log (shapeCast S4000x1
          (multiReduction .add [1] S4000 (exp (subf Z (broadcastTo S4000x64 (shapeCast S4000x1
              (multiReduction .maximumf [1] S4000 Z 0xFF800000#32 reduces_S4000x64_S4000 hf hm) shapeCasts_S4000_S4000x1)
              broadcasts_S4000x1_S4000x64)))
            0x00000000#32 reduces_S4000x64_S4000 hf hs) shapeCasts_S4000_S4000x1))
        broadcasts_S4000x1_S4000x64)) (ix2 p q)
      = logSoftmax (fun q' : Fin 64 => Z (ix2 p q')) q := by
  simp only [subf_apply]
  rw [column_repeat_apply, broadcastTo_a1_ab_apply, log_apply, shapeCast_a_a1_apply, rowSum_f32, rowMax_f32]
  unfold logSoftmax rowMax
  refine congrArg (fun s => Z (ix2 p q) - _ - Ideal.log s) (Finset.sum_congr rfl fun k _ => ?_)
  rw [exp_apply, subf_apply, column_repeat_apply, rowMax_f32]

/-- The second body's block at (p, q): the log-softmax of row p of the logits. -/
theorem out_payload (x0 : Vec Ideal S4000x64 .f32) (x2 : Vec Ideal S4000x1 .f32) (x6 : Vec Ideal S4000x256 .f32)
    (x9 : Vec Ideal S256x64 .bf16) (x13 : Vec Ideal S1x64 .f32) (p : Fin 4000) (q : Fin 64) :
    k1_pay1 x0 x2 x6 x9 x13 (ix2 p q)
      = logSoftmax (fun q' : Fin 64 => (x0 (ix2 p q') * x2 (ix2 p 0) + ∑ k : Fin 256, x6 (ix2 p k) * x9 (ix2 k q'))
          + x13 (ix2 0 q')) q := by
  unfold k1_pay1
  simp only [shapeCast_self]
  refine (softmax_tail _ _ _ _ p q).trans ?_
  refine congrArg (fun z : Fin 64 → EReal => logSoftmax z q) (funext fun q' => ?_)
  exact logits_payload x0 x2 x6 x9 x13 p q'

end Cert.KernelIdeal.Body

end
-- ==== Proof.Layer1.lean ====
/-
  The first region's two output arrays as whole-array functions of what the region finds.

  The region runs over 25 grid points; point t stages rows 4000·t … 4000·t + 3999 of the aggregated features, of the
  node features and of the reciprocal-count column, and the whole of the two transposed weight matrices, the bias row
  and the second layer's transposed weight matrix; it writes back rows 4000·t … of the hidden array and of the
  projected array. The blocks tile each output array, so after the run the hidden array is, entry by entry, the hidden
  layer (reciprocal form) of the arrays as the region found them, and the projected array its product with the weights.
-/
import proofs.«117623_j21311627723552_2_alg».proof.Proof.Gen.KernelIdeal.Frame
import proofs.«117623_j21311627723552_2_alg».proof.Proof.Body
import Idealize.ShloMosaic.Lib.Pipeline.Value

set_option maxRecDepth 16384

noncomputable section

namespace Cert.KernelIdeal.Layer1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of grid point t's block is row 4000·t + p of the array. -/
def row (t : Fin 25) (p : Fin 4000) : Fin 100000 := ⟨t.val * 4000 + p.val, by have := t.isLt; have := p.isLt; omega⟩

/-- The printed index maps, decided over the 25 grid points: the row-blocked windows sit at block (t, 0), the
    resident windows at block (0, 0). -/
theorem idx_facts : ∀ t : Fin cfg0.N, t.val < 25
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Every row block is some grid point's. -/
theorem idx_onto : ∀ b : Fin 25, ∃ t : Fin cfg0.N, t.val = b.val :=
  (by decide +kernel : ∀ b : Fin 25, ∃ t : Fin grid0.N, t.val = b.val)

/-- The grid point as a number below 25. -/
def pt (t : Fin cfg0.N) : Fin 25 := ⟨t.val, (idx_facts t).1⟩

/-! ## The hidden layer and its projection, of the arrays the region finds -/

/-- The hidden layer (reciprocal form) of the region's entry arrays, as an array over [100000, 256]. -/
def hiddenFn (c : Dev nD) : Fin 100000 → Fin 256 → EReal :=
  hiddenK (fun p k => V c main_v21 (ix2 p k)) (fun p k => V c main_arg0 (ix2 p k)) (fun p => V c main_v11 (ix2 p (0 : Fin 1)))
    (fun j k => V c main_v23 (ix2 k j)) (fun j k => V c main_v25 (ix2 k j)) (fun j => V c main_v28 (ix2 (0 : Fin 1) j))
    (Ideal.ofBits .f32 0x00000000#32)

def hiddenArr (c : Dev nD) : S100000x256.Idx → EReal := fun i => hiddenFn V c (i 0) (i 1)

/-- Its product with the second layer's aggregation weights, as an array over [100000, 64]. -/
def projArr (c : Dev nD) : S100000x64.Idx → EReal :=
  fun i => proj (hiddenFn V c) (fun q k => V c main_v27 (ix2 k q)) (i 0) (i 1)

/-! ## Block reads -/

theorem read_agg (c : Dev nD) (t : Fin cfg0.N) (p : Fin 4000) (k : Fin 128) :
    iblk0 V c 0 t (ix2 p k) = V c main_v21 (ix2 (row (pt t) p) k) := by
  obtain ⟨h25, e00, e01, -⟩ := idx_facts t
  show V c main_v21 (((cfg0.win 0).blk t).view.emb (ix2 p k)) = V c main_v21 (ix2 (row (pt t) p) k)
  refine congrArg (V c main_v21) (funext fun a => Fin.ext ?_)
  match a with
  | ⟨0, _⟩ => show win0_0.index t (0 : Fin 2) * 4000 + 1 * p.val = t.val * 4000 + p.val; rw [e00]; omega
  | ⟨1, _⟩ => show win0_0.index t (1 : Fin 2) * 128 + 1 * k.val = k.val; rw [e01]; omega

theorem read_feat (c : Dev nD) (t : Fin cfg0.N) (p : Fin 4000) (k : Fin 128) :
    iblk0 V c 1 t (ix2 p k) = V c main_arg0 (ix2 (row (pt t) p) k) := by
  obtain ⟨h25, -, -, e10, e11, -⟩ := idx_facts t
  show V c main_arg0 (((cfg0.win 1).blk t).view.emb (ix2 p k)) = V c main_arg0 (ix2 (row (pt t) p) k)
  refine congrArg (V c main_arg0) (funext fun a => Fin.ext ?_)
  match a with
  | ⟨0, _⟩ => show win0_1.index t (0 : Fin 2) * 4000 + 1 * p.val = t.val * 4000 + p.val; rw [e10]; omega
  | ⟨1, _⟩ => show win0_1.index t (1 : Fin 2) * 128 + 1 * k.val = k.val; rw [e11]; omega

theorem read_inv (c : Dev nD) (t : Fin cfg0.N) (p : Fin 4000) :
    iblk0 V c 2 t (ix2 p (0 : Fin 1)) = V c main_v11 (ix2 (row (pt t) p) (0 : Fin 1)) := by
  obtain ⟨h25, -, -, -, -, e20, e21, -⟩ := idx_facts t
  show V c main_v11 (((cfg0.win 2).blk t).view.emb (ix2 p (0 : Fin 1))) = V c main_v11 (ix2 (row (pt t) p) (0 : Fin 1))
  refine congrArg (V c main_v11) (funext fun a => Fin.ext ?_)
  match a with
  | ⟨0, _⟩ => show win0_2.index t (0 : Fin 2) * 4000 + 1 * p.val = t.val * 4000 + p.val; rw [e20]; omega
  | ⟨1, _⟩ => show win0_2.index t (1 : Fin 2) * 1 + 1 * 0 = 0; rw [e21]

theorem read_wagg (c : Dev nD) (t : Fin cfg0.N) (k : Fin 128) (j : Fin 256) :
    iblk0 V c 3 t (ix2 k j) = V c main_v23 (ix2 k j) := by
  obtain ⟨h25, -, -, -, -, -, -, e30, e31, -⟩ := idx_facts t
  show V c main_v23 (((cfg0.win 3).blk t).view.emb (ix2 k j)) = V c main_v23 (ix2 k j)
  refine congrArg (V c main_v23) (funext fun a => Fin.ext ?_)
  match a with
  | ⟨0, _⟩ => show win0_3.index t (0 : Fin 2) * 128 + 1 * k.val = k.val; rw [e30]; omega
  | ⟨1, _⟩ => show win0_3.index t (1 : Fin 2) * 256 + 1 * j.val = j.val; rw [e31]; omega

theorem read_wroot (c : Dev nD) (t : Fin cfg0.N) (k : Fin 128) (j : Fin 256) :
    iblk0 V c 4 t (ix2 k j) = V c main_v25 (ix2 k j) := by
  obtain ⟨h25, -, -, -, -, -, -, -, -, e40, e41, -⟩ := idx_facts t
  show V c main_v25 (((cfg0.win 4).blk t).view.emb (ix2 k j)) = V c main_v25 (ix2 k j)
  refine congrArg (V c main_v25) (funext fun a => Fin.ext ?_)
  match a with
  | ⟨0, _⟩ => show win0_4.index t (0 : Fin 2) * 128 + 1 * k.val = k.val; rw [e40]; omega
  | ⟨1, _⟩ => show win0_4.index t (1 : Fin 2) * 256 + 1 * j.val = j.val; rw [e41]; omega

theorem read_bias (c : Dev nD) (t : Fin cfg0.N) (j : Fin 256) :
    iblk0 V c 5 t (ix2 (0 : Fin 1) j) = V c main_v28 (ix2 (0 : Fin 1) j) := by
  obtain ⟨h25, -, -, -, -, -, -, -, -, -, -, e50, e51, -⟩ := idx_facts t
  show V c main_v28 (((cfg0.win 5).blk t).view.emb (ix2 (0 : Fin 1) j)) = V c main_v28 (ix2 (0 : Fin 1) j)
  refine congrArg (V c main_v28) (funext fun a => Fin.ext ?_)
  match a with
  | ⟨0, _⟩ => show win0_5.index t (0 : Fin 2) * 1 + 1 * 0 = 0; rw [e50]
  | ⟨1, _⟩ => show win0_5.index t (1 : Fin 2) * 256 + 1 * j.val = j.val; rw [e51]; omega

theorem read_wagg2 (c : Dev nD) (t : Fin cfg0.N) (k : Fin 256) (q : Fin 64) :
    iblk0 V c 6 t (ix2 k q) = V c main_v27 (ix2 k q) := by
  obtain ⟨h25, -, -, -, -, -, -, -, -, -, -, -, -, e60, e61, -⟩ := idx_facts t
  show V c main_v27 (((cfg0.win 6).blk t).view.emb (ix2 k q)) = V c main_v27 (ix2 k q)
  refine congrArg (V c main_v27) (funext fun a => Fin.ext ?_)
  match a with
  | ⟨0, _⟩ => show win0_6.index t (0 : Fin 2) * 256 + 1 * k.val = k.val; rw [e60]; omega
  | ⟨1, _⟩ => show win0_6.index t (1 : Fin 2) * 64 + 1 * q.val = q.val; rw [e61]; omega

/-- The hidden payload of point t's blocks at (p, j) is the hidden layer at row 4000·t + p. -/
theorem hidden_at (c : Dev nD) (t : Fin cfg0.N) (p : Fin 4000) (j : Fin 256) :
    k0_pay1 (iblk0 V c 0 t) (iblk0 V c 2 t) (iblk0 V c 1 t) (iblk0 V c 3 t) (iblk0 V c 4 t) (iblk0 V c 5 t) (ix2 p j)
      = hiddenFn V c (row (pt t) p) j := by
  refine (hidden_payload (iblk0 V c 0 t) (iblk0 V c 2 t) (iblk0 V c 1 t) (iblk0 V c 3 t) (iblk0 V c 4 t) (iblk0 V c 5 t) p j).trans ?_
  unfold hiddenFn hiddenK
  simp only [read_agg, read_feat, read_inv, read_wagg, read_wroot, read_bias]

/-- The projected payload of point t's blocks at (p, q) is the projection at row 4000·t + p. -/
theorem proj_at (c : Dev nD) (t : Fin cfg0.N) (p : Fin 4000) (q : Fin 64) :
    k0_pay2 (iblk0 V c 0 t) (iblk0 V c 2 t) (iblk0 V c 1 t) (iblk0 V c 3 t) (iblk0 V c 4 t) (iblk0 V c 5 t) (iblk0 V c 6 t) (ix2 p q)
      = proj (hiddenFn V c) (fun q k => V c main_v27 (ix2 k q)) (row (pt t) p) q := by
  refine (proj_payload (iblk0 V c 0 t) (iblk0 V c 2 t) (iblk0 V c 1 t) (iblk0 V c 3 t) (iblk0 V c 4 t) (iblk0 V c 5 t)
    (iblk0 V c 6 t) p q).trans ?_
  unfold proj
  simp only [hidden_at, read_wagg2]

/-! ## What each point writes back -/

/-- Row p, column j of point t's block of the hidden array is entry (4000·t + p, j) of the array. -/
theorem emb_hidden (t : Fin cfg0.N) (p : Fin 4000) (j : Fin 256) :
    ((cfg0.win 7).blk t).view.emb (ix2 p j) = ix2 (row (pt t) p) j := by
  obtain ⟨h25, -, -, -, -, -, -, -, -, -, -, -, -, -, -, e70, e71, -⟩ := idx_facts t
  funext a; apply Fin.ext
  match a with
  | ⟨0, _⟩ => show win0_7.index t (0 : Fin 2) * 4000 + 1 * p.val = t.val * 4000 + p.val; rw [e70]; omega
  | ⟨1, _⟩ => show win0_7.index t (1 : Fin 2) * 256 + 1 * j.val = j.val; rw [e71]; omega

theorem emb_proj (t : Fin cfg0.N) (p : Fin 4000) (q : Fin 64) :
    ((cfg0.win 8).blk t).view.emb (ix2 p q) = ix2 (row (pt t) p) q := by
  obtain ⟨h25, -, -, -, -, -, -, -, -, -, -, -, -, -, -, -, -, e80, e81⟩ := idx_facts t
  funext a; apply Fin.ext
  match a with
  | ⟨0, _⟩ => show win0_8.index t (0 : Fin 2) * 4000 + 1 * p.val = t.val * 4000 + p.val; rw [e80]; omega
  | ⟨1, _⟩ => show win0_8.index t (1 : Fin 2) * 64 + 1 * q.val = q.val; rw [e81]; omega

/-- WHAT POINT t WRITES BACK to the hidden array is block t of `hiddenArr`. -/
theorem hidden_flushed (c : Dev nD) (t : Fin cfg0.N) :
    (dat0 V c).flushed 7 t = ((cfg0.win 7).blk t).view.read (Elt Ideal) (hiddenArr V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz,
    View.ld_unit_zero (S := S128x256) hz, View.ld_unit_zero (S := S1x256) hz]
  funext y
  obtain ⟨p, j, rfl⟩ : ∃ (p : Fin 4000) (j : Fin 256), y = ix2 p j := ⟨y 0, y 1, eq_ix2 y⟩
  show k0_pay1 (iblk0 V c 0 t) (iblk0 V c 2 t) (iblk0 V c 1 t) (iblk0 V c 3 t) (iblk0 V c 4 t) (iblk0 V c 5 t) (ix2 p j)
    = hiddenArr V c (((cfg0.win 7).blk t).view.emb (ix2 p j))
  rw [emb_hidden, hidden_at]
  rfl

/-- WHAT POINT t WRITES BACK to the projected array is block t of `projArr`. -/
theorem proj_flushed (c : Dev nD) (t : Fin cfg0.N) :
    (dat0 V c).flushed 8 t = ((cfg0.win 8).blk t).view.read (Elt Ideal) (projArr V c) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz,
    View.ld_unit_zero (S := S128x256) hz, View.ld_unit_zero (S := S1x256) hz, View.ld_unit_zero (S := S256x64) hz]
  funext y
  obtain ⟨p, q, rfl⟩ : ∃ (p : Fin 4000) (q : Fin 64), y = ix2 p q := ⟨y 0, y 1, eq_ix2 y⟩
  show k0_pay2 (iblk0 V c 0 t) (iblk0 V c 2 t) (iblk0 V c 1 t) (iblk0 V c 3 t) (iblk0 V c 4 t) (iblk0 V c 5 t)
      (iblk0 V c 6 t) (ix2 p q)
    = projArr V c (((cfg0.win 8).blk t).view.emb (ix2 p q))
  rw [emb_proj, proj_at]
  rfl

/-! ## The blocks tile the arrays -/

theorem mem_blk_hidden (t : Fin cfg0.N) (i : S100000x256.Idx) :
    i ∈ ((cfg0.win 7).blk t).view.set ↔ ∀ a : Fin 2, win0_7.index t a * S4000x256.size a ≤ (i a).val
      ∧ (i a).val < win0_7.index t a * S4000x256.size a + S4000x256.size a := by
  show i ∈ ((View.whole main_v29_0).slice (win0_7.rect t)).set ↔ _
  rw [View.set_slice_whole, Rect.mem_set_unit]
  exact Iff.rfl

theorem mem_blk_proj (t : Fin cfg0.N) (i : S100000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v29_1).slice (win0_8.rect t)).set ↔ _
  rw [View.set_slice_whole, Rect.mem_set_unit]
  exact Iff.rfl

theorem cover_hidden (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  obtain ⟨t, ht⟩ := idx_onto ⟨(i 0).val / 4000, by omega⟩
  have ht' : t.val = (i 0).val / 4000 := ht
  obtain ⟨h25, -, -, -, -, -, -, -, -, -, -, -, -, -, -, e70, e71, -⟩ := idx_facts t
  refine ⟨t, flush0_7 t, ?_⟩
  rw [mem_blk_hidden]
  intro a
  match a with
  | ⟨0, _⟩ => show win0_7.index t (0 : Fin 2) * 4000 ≤ (i 0).val ∧ (i 0).val < win0_7.index t (0 : Fin 2) * 4000 + 4000; rw [e70]; omega
  | ⟨1, _⟩ => show win0_7.index t (1 : Fin 2) * 256 ≤ (i 1).val ∧ (i 1).val < win0_7.index t (1 : Fin 2) * 256 + 256; rw [e71]; omega

theorem cover_proj (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := idx_onto ⟨(i 0).val / 4000, by omega⟩
  have ht' : t.val = (i 0).val / 4000 := ht
  obtain ⟨h25, -, -, -, -, -, -, -, -, -, -, -, -, -, -, -, -, e80, e81⟩ := idx_facts t
  refine ⟨t, flush0_8 t, ?_⟩
  rw [mem_blk_proj]
  intro a
  match a with
  | ⟨0, _⟩ => show win0_8.index t (0 : Fin 2) * 4000 ≤ (i 0).val ∧ (i 0).val < win0_8.index t (0 : Fin 2) * 4000 + 4000; rw [e80]; omega
  | ⟨1, _⟩ => show win0_8.index t (1 : Fin 2) * 64 ≤ (i 1).val ∧ (i 1).val < win0_8.index t (1 : Fin 2) * 64 + 64; rw [e81]; omega

/-! ## The arrays after the region -/

/-- THE HIDDEN ARRAY after the region: the hidden layer of the arrays the region found. -/
theorem hidden_array (c : Dev nD) : (dat0 V c).arrAt 7 cfg0.N = hiddenArr V c :=
  (dat0 V c).arrAt_eq_of_cover 7 (hiddenArr V c) (fun t _ => hidden_flushed V c t) cover_hidden

/-- THE PROJECTED ARRAY after the region. -/
theorem proj_array (c : Dev nD) : (dat0 V c).arrAt 8 cfg0.N = projArr V c :=
  (dat0 V c).arrAt_eq_of_cover 8 (projArr V c) (fun t _ => proj_flushed V c t) cover_proj

end Cert.KernelIdeal.Layer1

end
-- ==== Proof.Layer2.lean ====
/-
  The second region's output array as a whole-array function of what the region finds.

  Point t stages rows 4000·t … of the aggregated projection, of the hidden array and of the reciprocal-count column, and
  the whole of the transposed root weights and of the bias row; it writes back rows 4000·t … of the result. The blocks tile
  the result, so after the run it is, entry by entry, the log-softmax of the row of logits (aggregated projection times the
  reciprocal count, plus the hidden row against the root weights, plus the bias) of the arrays as the region found them.
-/
import proofs.«117623_j21311627723552_2_alg».proof.Proof.Gen.KernelIdeal.Frame
import proofs.«117623_j21311627723552_2_alg».proof.Proof.Body
import Idealize.ShloMosaic.Lib.Pipeline.Value

set_option maxRecDepth 16384

noncomputable section

namespace Cert.KernelIdeal.Layer2

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p of grid point t's block is row 4000·t + p of the array. -/
def row (t : Fin 25) (p : Fin 4000) : Fin 100000 := ⟨t.val * 4000 + p.val, by have := t.isLt; have := p.isLt; omega⟩

/-- The printed index maps, decided over the 25 grid points. -/
theorem idx_facts : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem idx_onto : ∀ b : Fin 25, ∃ t : Fin cfg1.N, t.val = b.val :=
  (by decide +kernel : ∀ b : Fin 25, ∃ t : Fin grid1.N, t.val = b.val)

def pt (t : Fin cfg1.N) : Fin 25 := ⟨t.val, (idx_facts t).1⟩

/-- The logits of the arrays the region finds. -/
def logitsFn (c : Dev nD) : Fin 100000 → Fin 64 → EReal :=
  logitsA (fun p q => V c main_v39 (ix2 p q)) (fun p k => V c main_v29_0 (ix2 p k)) (fun p => V c main_v11 (ix2 p (0 : Fin 1)))
    (fun q k => V c main_v41 (ix2 k q)) (fun q => V c main_v42 (ix2 (0 : Fin 1) q))

/-- The result: the row-wise log-softmax of the logits. -/
def outArr (c : Dev nD) : S100000x64.Idx → EReal := fun i => logSoftmax (logitsFn V c (i 0)) (i 1)

/-! ## Block reads -/

theorem read_sum (c : Dev nD) (t : Fin cfg1.N) (p : Fin 4000) (q : Fin 64) :
    iblk1 V c 0 t (ix2 p q) = V c main_v39 (ix2 (row (pt t) p) q) := by
  obtain ⟨h25, e00, e01, -⟩ := idx_facts t
  show V c main_v39 (((cfg1.win 0).blk t).view.emb (ix2 p q)) = V c main_v39 (ix2 (row (pt t) p) q)
  refine congrArg (V c main_v39) (funext fun a => Fin.ext ?_)
  match a with
  | ⟨0, _⟩ => show win1_0.index t (0 : Fin 2) * 4000 + 1 * p.val = t.val * 4000 + p.val; rw [e00]; omega
  | ⟨1, _⟩ => show win1_0.index t (1 : Fin 2) * 64 + 1 * q.val = q.val; rw [e01]; omega

theorem read_hidden (c : Dev nD) (t : Fin cfg1.N) (p : Fin 4000) (k : Fin 256) :
    iblk1 V c 1 t (ix2 p k) = V c main_v29_0 (ix2 (row (pt t) p) k) := by
  obtain ⟨h25, -, -, e10, e11, -⟩ := idx_facts t
  show V c main_v29_0 (((cfg1.win 1).blk t).view.emb (ix2 p k)) = V c main_v29_0 (ix2 (row (pt t) p) k)
  refine congrArg (V c main_v29_0) (funext fun a => Fin.ext ?_)
  match a with
  | ⟨0, _⟩ => show win1_1.index t (0 : Fin 2) * 4000 + 1 * p.val = t.val * 4000 + p.val; rw [e10]; omega
  | ⟨1, _⟩ => show win1_1.index t (1 : Fin 2) * 256 + 1 * k.val = k.val; rw [e11]; omega

theorem read_inv (c : Dev nD) (t : Fin cfg1.N) (p : Fin 4000) :
    iblk1 V c 2 t (ix2 p (0 : Fin 1)) = V c main_v11 (ix2 (row (pt t) p) (0 : Fin 1)) := by
  obtain ⟨h25, -, -, -, -, e20, e21, -⟩ := idx_facts t
  show V c main_v11 (((cfg1.win 2).blk t).view.emb (ix2 p (0 : Fin 1))) = V c main_v11 (ix2 (row (pt t) p) (0 : Fin 1))
  refine congrArg (V c main_v11) (funext fun a => Fin.ext ?_)
  match a with
  | ⟨0, _⟩ => show win1_2.index t (0 : Fin 2) * 4000 + 1 * p.val = t.val * 4000 + p.val; rw [e20]; omega
  | ⟨1, _⟩ => show win1_2.index t (1 : Fin 2) * 1 + 1 * 0 = 0; rw [e21]

theorem read_wroot (c : Dev nD) (t : Fin cfg1.N) (k : Fin 256) (q : Fin 64) :
    iblk1 V c 3 t (ix2 k q) = V c main_v41 (ix2 k q) := by
  obtain ⟨h25, -, -, -, -, -, -, e30, e31, -⟩ := idx_facts t
  show V c main_v41 (((cfg1.win 3).blk t).view.emb (ix2 k q)) = V c main_v41 (ix2 k q)
  refine congrArg (V c main_v41) (funext fun a => Fin.ext ?_)
  match a with
  | ⟨0, _⟩ => show win1_3.index t (0 : Fin 2) * 256 + 1 * k.val = k.val; rw [e30]; omega
  | ⟨1, _⟩ => show win1_3.index t (1 : Fin 2) * 64 + 1 * q.val = q.val; rw [e31]; omega

theorem read_bias (c : Dev nD) (t : Fin cfg1.N) (q : Fin 64) :
    iblk1 V c 4 t (ix2 (0 : Fin 1) q) = V c main_v42 (ix2 (0 : Fin 1) q) := by
  obtain ⟨h25, -, -, -, -, -, -, -, -, e40, e41, -⟩ := idx_facts t
  show V c main_v42 (((cfg1.win 4).blk t).view.emb (ix2 (0 : Fin 1) q)) = V c main_v42 (ix2 (0 : Fin 1) q)
  refine congrArg (V c main_v42) (funext fun a => Fin.ext ?_)
  match a with
  | ⟨0, _⟩ => show win1_4.index t (0 : Fin 2) * 1 + 1 * 0 = 0; rw [e40]
  | ⟨1, _⟩ => show win1_4.index t (1 : Fin 2) * 64 + 1 * q.val = q.val; rw [e41]; omega

/-- The payload of point t's blocks at (p, q) is the log-softmax of the logits' row 4000·t + p. -/
theorem out_at (c : Dev nD) (t : Fin cfg1.N) (p : Fin 4000) (q : Fin 64) :
    k1_pay1 (iblk1 V c 0 t) (iblk1 V c 2 t) (iblk1 V c 1 t) (iblk1 V c 3 t) (iblk1 V c 4 t) (ix2 p q)
      = logSoftmax (logitsFn V c (row (pt t) p)) q := by
  refine (out_payload (iblk1 V c 0 t) (iblk1 V c 2 t) (iblk1 V c 1 t) (iblk1 V c 3 t) (iblk1 V c 4 t) p q).trans ?_
  refine congrArg (fun z : Fin 64 → EReal => logSoftmax z q) (funext fun q' => ?_)
  unfold logitsFn logitsA
  simp only [read_sum, read_hidden, read_inv, read_wroot, read_bias]

/-! ## What each point writes back, and the cover -/

theorem emb_out (t : Fin cfg1.N) (p : Fin 4000) (q : Fin 64) :
    ((cfg1.win 5).blk t).view.emb (ix2 p q) = ix2 (row (pt t) p) q := by
  obtain ⟨h25, -, -, -, -, -, -, -, -, -, -, e50, e51⟩ := idx_facts t
  funext a; apply Fin.ext
  match a with
  | ⟨0, _⟩ => show win1_5.index t (0 : Fin 2) * 4000 + 1 * p.val = t.val * 4000 + p.val; rw [e50]; omega
  | ⟨1, _⟩ => show win1_5.index t (1 : Fin 2) * 64 + 1 * q.val = q.val; rw [e51]; omega

/-- WHAT POINT t WRITES BACK is block t of `outArr`. -/
theorem out_flushed (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz,
    View.ld_unit_zero (S := S4000x256) hz, View.ld_unit_zero (S := S256x64) hz, View.ld_unit_zero (S := S1x64) hz]
  funext y
  obtain ⟨p, q, rfl⟩ : ∃ (p : Fin 4000) (q : Fin 64), y = ix2 p q := ⟨y 0, y 1, eq_ix2 y⟩
  show k1_pay1 (iblk1 V c 0 t) (iblk1 V c 2 t) (iblk1 V c 1 t) (iblk1 V c 3 t) (iblk1 V c 4 t) (ix2 p q)
    = outArr V c (((cfg1.win 5).blk t).view.emb (ix2 p q))
  rw [emb_out, out_at]
  rfl

theorem mem_blk_out (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v43).slice (win1_5.rect t)).set ↔ _
  rw [View.set_slice_whole, Rect.mem_set_unit]
  exact Iff.rfl

theorem cover_out (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 4000, by omega⟩
  have ht' : t.val = (i 0).val / 4000 := ht
  obtain ⟨h25, -, -, -, -, -, -, -, -, -, -, e50, e51⟩ := idx_facts t
  refine ⟨t, flush1_5 t, ?_⟩
  rw [mem_blk_out]
  intro a
  match a with
  | ⟨0, _⟩ => show win1_5.index t (0 : Fin 2) * 4000 ≤ (i 0).val ∧ (i 0).val < win1_5.index t (0 : Fin 2) * 4000 + 4000; rw [e50]; omega
  | ⟨1, _⟩ => show win1_5.index t (1 : Fin 2) * 64 ≤ (i 1).val ∧ (i 1).val < win1_5.index t (1 : Fin 2) * 64 + 64; rw [e51]; omega

/-- THE RESULT ARRAY after the region. -/
theorem out_array (c : Dev nD) : (dat1 V c).arrAt 5 cfg1.N = outArr V c :=
  (dat1 V c).arrAt_eq_of_cover 5 (outArr V c) (fun t _ => out_flushed V c t) cover_out

end Cert.KernelIdeal.Layer2

end
-- ==== Proof.Entry.lean ====
/-
  What the two regions find in their arrays, as terms of the argument arrays.

  Before the first region the host gathers the source rows of the node features along the edges and adds them into
  the destination rows (the aggregated features), counts the edges into every node, bounds the count below by one and
  takes its reciprocal as a column, and transposes the weight matrices. Between the regions it does the same gather
  and scatter-add with the first region's projected array. Each array a region stages is named here by the stage
  function of the reference program that computes the same term, so that the two programs' values are later compared
  over the same names.
-/
import proofs.«117623_j21311627723552_2_alg».proof.Proof.KernelRun
import proofs.«117623_j21311627723552_2_alg».proof.Proof.Layer1
import proofs.«117623_j21311627723552_2_alg».proof.Proof.Layer2
import proofs.«117623_j21311627723552_2_alg».proof.Proof.RefReadPatched
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg) (c : Dev nD)

/-- One simp pass reading a buffer after the host stretches before the first region. -/
macro "entry_results" : tactic =>
  `(tactic| (simp (disch := decide) only [hostOps0, hostOps0_1, hostOps0_2, hostOps1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- Contents carried to a typed buffer's own type and back are unchanged. -/
theorem ofBuf_toBuf {T : BufTy} (x : TRef sig T) (v : T.Contents (Elt Ideal)) : x.ofBuf (x.toBuf v) = v := by
  show cast _ (cast _ v) = v
  rw [cast_cast]; exact cast_eq _ _

/-! ## The first region's arrays at entry -/

/-- The aggregated features. -/
theorem agg_entry : V3 m ρ c main_v21 = val_main_v13 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v21) = _
  entry_results <;> rfl

/-- The node features. -/
theorem feat_entry : V3 m ρ c main_arg0 = m ((c : Thread nD τ).loc main_arg0) := by
  show StableHlo.after hostOps0_2 (StableHlo.after hostOps0_1 (StableHlo.after hostOps0 (W0 m ρ c))) (Proc.devRef .tc main_arg0) = _
  entry_results <;> rfl

/-- The reciprocal of the bounded edge count, as a column. -/
theorem inv_entry : V3 m ρ c main_v11
    = shapeCast S100000x1 (Host.divf (F := Ideal) (broadcastInDim S100000 ![] bcast_S_S100000 (constant (F := Ideal) S_ .f32 0x3F800000#32))
        (val_main_v18 (F := Ideal) (m ((c : Thread nD τ).loc main_arg1)))) shapeCasts_S100000_S100000x1 := by
  show StableHlo.after hostOps0_2 (StableHlo.after hostOps0_1 (StableHlo.after hostOps0 (W0 m ρ c))) (Proc.devRef .tc main_v11) = _
  entry_results
  simp only [ofBuf_toBuf]
  have h8 : ∀ v : (⟨S100000, .f32⟩ : BufTy).Contents (Elt Ideal),
      (TRef.of (T := ⟨S100000, .f32⟩) main_v8).toBuf v = v := fun v => eq_of_heq (cast_heq _ _)
  have h7 : ∀ u, (TRef.of (T := ⟨S100000, .f32⟩) main_v7).ofBuf (Val := Elt Ideal) u = u := fun u => eq_of_heq (cast_heq _ _)
  have h1 : ∀ u, (TRef.of (T := ⟨S_, .f32⟩) main_cst_1).ofBuf (Val := Elt Ideal) u = u := fun u => eq_of_heq (cast_heq _ _)
  simp only [h8, h7, h1]
  rfl

/-- The transposed aggregation weights of the first layer. -/
theorem wagg_entry : V3 m ρ c main_v23
    = transpose S128x256 [1, 0] (truncf (F := Ideal) .bf16 (m ((c : Thread nD τ).loc main_arg2)) bitsLt_bf16_f32) transposes_S256x128_S128x256_1_0 := by
  show StableHlo.after hostOps0_2 (StableHlo.after hostOps0_1 (StableHlo.after hostOps0 (W0 m ρ c))) (Proc.devRef .tc main_v23) = _
  entry_results <;> rfl

/-- The transposed root weights of the first layer. -/
theorem wroot_entry : V3 m ρ c main_v25
    = transpose S128x256 [1, 0] (truncf (F := Ideal) .bf16 (m ((c : Thread nD τ).loc main_arg4)) bitsLt_bf16_f32) transposes_S256x128_S128x256_1_0 := by
  show StableHlo.after hostOps0_2 (StableHlo.after hostOps0_1 (StableHlo.after hostOps0 (W0 m ρ c))) (Proc.devRef .tc main_v25) = _
  entry_results <;> rfl

/-- The first layer's bias as a row. -/
theorem bias_entry : V3 m ρ c main_v28 = shapeCast S1x256 (m ((c : Thread nD τ).loc main_arg3)) shapeCasts_S256_S1x256 := by
  show StableHlo.after hostOps0_2 (StableHlo.after hostOps0_1 (StableHlo.after hostOps0 (W0 m ρ c))) (Proc.devRef .tc main_v28) = _
  entry_results <;> rfl

/-- The transposed aggregation weights of the second layer. -/
theorem wagg2_entry : V3 m ρ c main_v27
    = transpose S256x64 [1, 0] (truncf (F := Ideal) .bf16 (m ((c : Thread nD τ).loc main_arg5)) bitsLt_bf16_f32) transposes_S64x256_S256x64_1_0 := by
  show StableHlo.after hostOps0_2 (StableHlo.after hostOps0_1 (StableHlo.after hostOps0 (W0 m ρ c))) (Proc.devRef .tc main_v27) = _
  entry_results <;> rfl

/-- The edges' source indices. -/
theorem src_entry : V3 m ρ c main_v1 = val_main_v1 (F := Ideal) (m ((c : Thread nD τ).loc main_arg1)) := by
  show StableHlo.after hostOps0_2 (StableHlo.after hostOps0_1 (StableHlo.after hostOps0 (W0 m ρ c))) (Proc.devRef .tc main_v1) = _
  entry_results <;> rfl

/-- The edges' destination indices. -/
theorem dst_entry : V3 m ρ c main_v3 = val_main_v3 (F := Ideal) (m ((c : Thread nD τ).loc main_arg1)) := by
  show StableHlo.after hostOps0_2 (StableHlo.after hostOps0_1 (StableHlo.after hostOps0 (W0 m ρ c))) (Proc.devRef .tc main_v3) = _
  entry_results <;> rfl

theorem arg6_entry : V3 m ρ c main_arg6 = m ((c : Thread nD τ).loc main_arg6) := by
  show StableHlo.after hostOps0_2 (StableHlo.after hostOps0_1 (StableHlo.after hostOps0 (W0 m ρ c))) (Proc.devRef .tc main_arg6) = _
  entry_results <;> rfl

theorem arg7_entry : V3 m ρ c main_arg7 = m ((c : Thread nD τ).loc main_arg7) := by
  show StableHlo.after hostOps0_2 (StableHlo.after hostOps0_1 (StableHlo.after hostOps0 (W0 m ρ c))) (Proc.devRef .tc main_arg7) = _
  entry_results <;> rfl

/-! ## What the first region leaves -/

/-- The hidden array after the first region. -/
theorem W4_hidden : W4 m ρ c (Proc.devRef .tc main_v29_0) = Layer1.hiddenArr (V3 m ρ) c :=
  (W4_arr m ρ c 7).trans (Layer1.hidden_array (V3 m ρ) c)
/-- The projected array after the first region. -/
theorem W4_proj : W4 m ρ c (Proc.devRef .tc main_v29_1) = Layer1.projArr (V3 m ρ) c :=
  (W4_arr m ρ c 8).trans (Layer1.proj_array (V3 m ρ) c)
/-- The reciprocal-count column is an input of the first region: unchanged. -/
theorem W4_inv : W4 m ρ c (Proc.devRef .tc main_v11) = V3 m ρ c main_v11 :=
  (W4_arr m ρ c 2).trans (((dat0 (V3 m ρ) c).arrAt_in 2 rfl _).trans (A_eq0 (V3 m ρ) c 2))
/-- Buffers the first region does not stage keep their contents. -/
theorem W4_src : W4 m ρ c (Proc.devRef .tc main_v1) = val_main_v1 (F := Ideal) (m ((c : Thread nD τ).loc main_arg1)) :=
  (W4_of_ne m ρ c main_v1 (by decide)).trans (src_entry m ρ c)
theorem W4_dst : W4 m ρ c (Proc.devRef .tc main_v3) = val_main_v3 (F := Ideal) (m ((c : Thread nD τ).loc main_arg1)) :=
  (W4_of_ne m ρ c main_v3 (by decide)).trans (dst_entry m ρ c)
theorem W4_arg6 : W4 m ρ c (Proc.devRef .tc main_arg6) = m ((c : Thread nD τ).loc main_arg6) :=
  (W4_of_ne m ρ c main_arg6 (by decide)).trans (arg6_entry m ρ c)
theorem W4_arg7 : W4 m ρ c (Proc.devRef .tc main_arg7) = m ((c : Thread nD τ).loc main_arg7) :=
  (W4_of_ne m ρ c main_arg7 (by decide)).trans (arg7_entry m ρ c)

/-! ## The second region's arrays at entry -/

/-- The aggregated projection: the projected rows gathered along the edges and added into the destination rows. -/
theorem sum2_entry : V5 m ρ c main_v39
    = Host.scatterAdd (F := Ideal) scatter_S100000x64_S640000x1_S640000x64_1_0_0_1
        (broadcastInDim S100000x64 ![] bcast_S_S100000x64 (constant (F := Ideal) S_ .f32 0x00000000#32))
        (val_main_v39 (F := Ideal) (m ((c : Thread nD τ).loc main_arg1)))
        (Host.gather gather_S100000x64_S640000x1_S640000x64_1_0_n_n_0_1_164 (Layer1.projArr (V3 m ρ) c)
          (val_main_v36 (F := Ideal) (m ((c : Thread nD τ).loc main_arg1)))) := by
  show StableHlo.after hostOps1 (W4 m ρ c) (Proc.devRef .tc main_v39) = _
  entry_results
  rw [W4_proj, W4_src, W4_dst]
  rfl

theorem hidden2_entry : V5 m ρ c main_v29_0 = Layer1.hiddenArr (V3 m ρ) c := by
  show StableHlo.after hostOps1 (W4 m ρ c) (Proc.devRef .tc main_v29_0) = _
  entry_results
  exact W4_hidden m ρ c

theorem inv2_entry : V5 m ρ c main_v11 = V3 m ρ c main_v11 := by
  show StableHlo.after hostOps1 (W4 m ρ c) (Proc.devRef .tc main_v11) = _
  entry_results
  exact W4_inv m ρ c

theorem wroot2_entry : V5 m ρ c main_v41
    = transpose S256x64 [1, 0] (truncf (F := Ideal) .bf16 (m ((c : Thread nD τ).loc main_arg7)) bitsLt_bf16_f32) transposes_S64x256_S256x64_1_0 := by
  show StableHlo.after hostOps1 (W4 m ρ c) (Proc.devRef .tc main_v41) = _
  entry_results
  rw [W4_arg7]

theorem bias2_entry : V5 m ρ c main_v42 = shapeCast S1x64 (m ((c : Thread nD τ).loc main_arg6)) shapeCasts_S64_S1x64 := by
  show StableHlo.after hostOps1 (W4 m ρ c) (Proc.devRef .tc main_v42) = _
  entry_results
  rw [W4_arg6]
  rfl

/-! ## The result -/

/-- The result buffer after the whole run: the second region's output array of what that region found. -/
theorem result_entry : W6 m ρ c (Proc.devRef .tc main_v43) = Layer2.outArr (V5 m ρ) c :=
  (W6_arr m ρ c 5).trans (Layer2.out_array (V5 m ρ) c)

end Cert.KernelIdeal.Entry

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.RefValue.lean ====
/-
  The reference program's stages read at an entry.

  With S the aggregated features, X the node features, dc the edge count bounded below by one, and the weights and
  biases as given, the reference's hidden array is, entry by entry, max((Σₖ (S/dc)(p,k)·W₁ₐ(j,k) + b₁(j)) + Σₖ X(p,k)·W₁ᵣ(j,k), 0);
  its logits are (Σₖ (nbrSum H / dc)(p,k)·W₂ₐ(q,k) + b₂(q)) + Σₖ H(p,k)·W₂ᵣ(q,k), the neighbour sum taken over the
  edges whose destination index (read signed) is p, each carrying the hidden row its source index names (read signed,
  brought into range); and its result is the row-wise log-softmax of the logits.
-/
import proofs.«117623_j21311627723552_2_alg».proof.Proof.RefReadPatched
import proofs.«117623_j21311627723552_2_alg».proof.Proof.Spec
import proofs.«117623_j21311627723552_2_alg».proof.Proof.LibColumns
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.ReadP Cert.Sage Cert.LibColumns
open Idealize.ShloMosaic Idealize.ShloMosaic.ValueIdx

variable (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal))

/-! ## The pieces, named -/

/-- The aggregated features. -/
def aggF : Fin 100000 → Fin 128 → EReal := fun p k => val_main_v13 (F := Ideal) x0 x1 (ix2 p k)
/-- The node features. -/
def featF : Fin 100000 → Fin 128 → EReal := fun p k => x0 (ix2 p k)
/-- The edge count bounded below by one. -/
def countF : Fin 100000 → EReal := fun p => val_main_v18 (F := Ideal) x1 (ix1 p)
/-- The destination index of an edge, read signed. -/
def dstF : Fin 640000 → ℤ := fun e => (val_main_v39 (F := Ideal) x1 (ix2 e (0 : Fin 1))).toInt
/-- The table row an edge carries: its source index read signed and brought into range. -/
def srcF : Fin 640000 → Fin 100000 := gatherRow (val_main_v36 (F := Ideal) x1) (by decide)
/-- The relu's zero. -/
abbrev zeroW : EReal := Ideal.ofBits .f32 0x00000000#32

/-- The hidden layer, entry by entry. -/
def hiddenF : Fin 100000 → Fin 256 → EReal :=
  hiddenR (aggF x0 x1) (featF x0) (countF x1) (fun j k => x2 (ix2 j k)) (fun j k => x4 (ix2 j k)) (fun j => x3 (ix1 j)) zeroW

/-- The logits, entry by entry. -/
def logitsF : Fin 100000 → Fin 64 → EReal :=
  logitsR (hiddenF x0 x1 x2 x3 x4) (dstF x1) (srcF x1) (countF x1) (fun q k => x5 (ix2 q k)) (fun q k => x7 (ix2 q k))
    (fun q => x6 (ix1 q))

/-! ## The hidden layer -/

theorem hidden_apply (r : Fin 100000) (j : Fin 256) :
    val_main_v30 (F := Ideal) x0 x1 x2 x3 x4 (ix2 r j) = hiddenF x0 x1 x2 x3 x4 r j := by
  have e1 : ∀ k : Fin 128, lidx_main_v23 (ix2 r j) k = ix2 r k := fun k => funext fun a => Fin.ext (by match a with | ⟨0, _⟩ => rfl | ⟨1, _⟩ => rfl)
  have e2 : ∀ k : Fin 128, ridx_main_v23 (ix2 r j) k = ix2 k j := fun k => funext fun a => Fin.ext (by match a with | ⟨0, _⟩ => rfl | ⟨1, _⟩ => rfl)
  have e3 : ∀ k : Fin 128, idx_main_v22 (ix2 k j) = ix2 j k := fun k => funext fun a => Fin.ext (by match a with | ⟨0, _⟩ => rfl | ⟨1, _⟩ => rfl)
  have e4 : ∀ k : Fin 128, idx_main_v20 (ix2 r k) = ix2 r (0 : Fin 1) := fun k => funext fun a => Fin.ext (by match a with | ⟨0, _⟩ => rfl | ⟨1, _⟩ => rfl)
  have e5 : idx_main_v19 (ix2 r (0 : Fin 1)) = ix1 r := funext fun a => Fin.ext (by match a with | ⟨0, _⟩ => rfl)
  have e6 : idx_main_v25 (ix2 r j) = ix2 (0 : Fin 1) j := funext fun a => Fin.ext (by match a with | ⟨0, _⟩ => rfl | ⟨1, _⟩ => rfl)
  have e7 : idx_main_v24 (ix2 (0 : Fin 1) j) = ix1 j := funext fun a => Fin.ext (by match a with | ⟨0, _⟩ => rfl)
  have e8 : ∀ k : Fin 128, lidx_main_v28 (ix2 r j) k = ix2 r k := fun k => funext fun a => Fin.ext (by match a with | ⟨0, _⟩ => rfl | ⟨1, _⟩ => rfl)
  have e9 : ∀ k : Fin 128, ridx_main_v28 (ix2 r j) k = ix2 k j := fun k => funext fun a => Fin.ext (by match a with | ⟨0, _⟩ => rfl | ⟨1, _⟩ => rfl)
  have e10 : ∀ k : Fin 128, idx_main_v27 (ix2 k j) = ix2 j k := fun k => funext fun a => Fin.ext (by match a with | ⟨0, _⟩ => rfl | ⟨1, _⟩ => rfl)
  rw [val_main_v30_apply, val_main_v29_apply, val_main_v26_apply, val_main_v23_apply, val_main_v28_apply,
    val_main_v25_apply, val_main_v24_apply, val_main_call1_v0_apply, val_main_call1_cst_apply]
  simp only [val_main_v21_apply, val_main_v20_apply, val_main_v19_apply, val_main_v22_apply, val_main_v27_apply,
    e1, e2, e3, e4, e5, e6, e7, e8, e9, e10, Ideal.maximumf_def, Ideal.addf_def, Ideal.hostDivf_def, Ideal.ofBits_def]
  rfl

/-! ## The neighbour sum of the hidden rows -/

theorem scatter256_eq : scatter_S100000x256_S640000x1_S640000x256_1_0_0_1
    = rowScatter 100000 640000 256 Facts₀.scatter_S100000x256_S640000x1_S640000x256_1_0_0_1_wf := rfl
theorem gather256_eq : gather_S100000x256_S640000x1_S640000x256_1_0_n_n_0_1_1256
    = rowGather 100000 640000 256 Facts₀.gather_S100000x256_S640000x1_S640000x256_1_0_n_n_0_1_1256_wf := rfl

/-- The scatter-add of the gathered hidden rows into a zero array, at (p, k): the neighbour sum of the hidden layer. -/
theorem nbr_apply (p : Fin 100000) (k : Fin 256) :
    val_main_v40 (F := Ideal) x0 x1 x2 x3 x4 (ix2 p k)
      = nbrSum (dstF x1) (srcF x1) (hiddenF x0 x1 x2 x3 x4) p k := by
  unfold val_main_v40 val_main_v37
  rw [scatter256_eq, gather256_eq, scatterAdd_rows_apply, val_main_v38_apply, val_main_cst_6_apply]
  simp only [Ideal.ofBits_def, Ideal.ofBits_zero_f32, zero_add,
    gather_rows_apply _ _ (by decide : 0 < 100000), hidden_apply]
  rfl

/-! ## The logits -/

theorem logits_apply (p : Fin 100000) (q : Fin 64) :
    val_main_v56 (F := Ideal) x0 x1 x2 x3 x4 x5 x6 x7 (ix2 p q) = logitsF x0 x1 x2 x3 x4 x5 x6 x7 p q := by
  have e1 : ∀ k : Fin 256, lidx_main_v50 (ix2 p q) k = ix2 p k := fun k => funext fun a => Fin.ext (by match a with | ⟨0, _⟩ => rfl | ⟨1, _⟩ => rfl)
  have e2 : ∀ k : Fin 256, ridx_main_v50 (ix2 p q) k = ix2 k q := fun k => funext fun a => Fin.ext (by match a with | ⟨0, _⟩ => rfl | ⟨1, _⟩ => rfl)
  have e3 : ∀ k : Fin 256, idx_main_v49 (ix2 k q) = ix2 q k := fun k => funext fun a => Fin.ext (by match a with | ⟨0, _⟩ => rfl | ⟨1, _⟩ => rfl)
  have e4 : ∀ k : Fin 256, idx_main_v47 (ix2 p k) = ix2 p (0 : Fin 1) := fun k => funext fun a => Fin.ext (by match a with | ⟨0, _⟩ => rfl | ⟨1, _⟩ => rfl)
  have e5 : idx_main_v46 (ix2 p (0 : Fin 1)) = ix1 p := funext fun a => Fin.ext (by match a with | ⟨0, _⟩ => rfl)
  have e6 : idx_main_v52 (ix2 p q) = ix2 (0 : Fin 1) q := funext fun a => Fin.ext (by match a with | ⟨0, _⟩ => rfl | ⟨1, _⟩ => rfl)
  have e7 : idx_main_v51 (ix2 (0 : Fin 1) q) = ix1 q := funext fun a => Fin.ext (by match a with | ⟨0, _⟩ => rfl)
  have e8 : ∀ k : Fin 256, lidx_main_v55 (ix2 p q) k = ix2 p k := fun k => funext fun a => Fin.ext (by match a with | ⟨0, _⟩ => rfl | ⟨1, _⟩ => rfl)
  have e9 : ∀ k : Fin 256, ridx_main_v55 (ix2 p q) k = ix2 k q := fun k => funext fun a => Fin.ext (by match a with | ⟨0, _⟩ => rfl | ⟨1, _⟩ => rfl)
  have e10 : ∀ k : Fin 256, idx_main_v54 (ix2 k q) = ix2 q k := fun k => funext fun a => Fin.ext (by match a with | ⟨0, _⟩ => rfl | ⟨1, _⟩ => rfl)
  have ec : val_main_v45 (F := Ideal) x1 = val_main_v18 (F := Ideal) x1 := rfl
  rw [val_main_v56_apply, val_main_v53_apply, val_main_v50_apply, val_main_v55_apply, val_main_v52_apply,
    val_main_v51_apply]
  simp only [val_main_v48_apply, val_main_v47_apply, val_main_v46_apply, val_main_v49_apply, val_main_v54_apply,
    e1, e2, e3, e4, e5, e6, e7, e8, e9, e10, nbr_apply, hidden_apply, ec, Ideal.addf_def, Ideal.hostDivf_def]
  rfl

end Cert.ReferenceIdeal.RefValue

end
-- ==== Proof.Bridge.lean ====
/-
  The kernel's arrangement of the network is the reference's, over real inputs.

  The kernel multiplies by the reciprocal of the bounded edge count where the reference divides by it, adds the first
  layer's bias last, and in the second layer projects each node's hidden row before aggregating along the edges where
  the reference aggregates the hidden rows and then projects. With the node features, weights and biases real
  numbers, the aggregated features, the hidden layer and the reciprocal count are real and the count is a nonzero
  real (a maximum with one), so the two arrangements of both layers agree entry by entry.
-/
import proofs.«117623_j21311627723552_2_alg».proof.Proof.RefValue
import proofs.«117623_j21311627723552_2_alg».proof.Proof.LibFinite

set_option maxRecDepth 16384

noncomputable section

namespace Cert.ReferenceIdeal.RefValue

open Cert.ReferenceIdeal Cert.ReferenceIdeal.Gen Cert.ReferenceIdeal.ReadP Cert.Sage Cert.LibColumns
open Idealize.ShloMosaic Idealize.ShloMosaic.ValueIdx Idealize.ShloMosaic.LibFinite

variable (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal))

/-- The word of single-precision one denotes 1. -/
theorem ofBits_one : Ideal.ofBits .f32 0x3F800000#32 = 1 := by
  simp [Ideal.ofBits, Ideal.ieee]
  rw [← EReal.coe_mul, ← EReal.coe_one]
  exact congrArg _ (by norm_num)

/-- The reciprocal of the bounded edge count. -/
def invF : Fin 100000 → EReal := fun p => Ideal.div (Ideal.ofBits .f32 0x3F800000#32) (countF x1 p)

/-- The hidden layer as the kernel arranges it. -/
def hiddenKF : Fin 100000 → Fin 256 → EReal :=
  hiddenK (aggF x0 x1) (featF x0) (invF x1) (fun j k => x2 (ix2 j k)) (fun j k => x4 (ix2 j k)) (fun j => x3 (ix1 j)) zeroW

/-- The logits as the kernel arranges them. -/
def logitsKF : Fin 100000 → Fin 64 → EReal :=
  logitsA (nbrSum (dstF x1) (srcF x1) (proj (hiddenKF x0 x1 x2 x3 x4) (fun q k => x5 (ix2 q k))))
    (hiddenKF x0 x1 x2 x3 x4) (invF x1) (fun q k => x7 (ix2 q k)) (fun q => x6 (ix1 q))

/-! ## Real entries -/

/-- The edge count bounded below by one is a nonzero real: the larger of one and a finite sum of ones and zeros. -/
theorem count_unit (p : Fin 100000) : IsUnitReal (countF x1 p) := by
  unfold countF val_main_v18
  show IsUnitReal (max (val_main_call0_v1 (F := Ideal) (ix1 p)) (val_main_v17 (F := Ideal) x1 (ix1 p)))
  have h1 : val_main_call0_v1 (F := Ideal) (ix1 p) = 1 := by
    show Ideal.ofBits .f32 0x3F800000#32 = 1
    exact ofBits_one
  have h2 : IsReal (val_main_v17 (F := Ideal) x1 (ix1 p)) := by
    unfold val_main_v17
    refine isReal_scatterAdd _ _ _ _ (fun i => ?_) (fun j => ?_) _
    · show IsReal (Ideal.ofBits .f32 0x00000000#32); exact isReal_ofBits_zero
    · show IsReal (Ideal.ofBits .f32 0x3F800000#32); exact isReal_ofBits_one
  obtain ⟨r, hr⟩ := h2
  rw [h1, hr]
  refine ⟨max 1 r, ?_, ?_⟩
  · have : (1 : ℝ) ≤ max 1 r := le_max_left _ _
    intro h0; rw [h0] at this; norm_num at this
  · rw [← EReal.coe_one]
    exact (EReal.coe_strictMono.monotone.map_max).symm

variable (hx0 : ∀ i, IsReal (x0 i)) (hx2 : ∀ i, IsReal (x2 i)) (hx3 : ∀ i, IsReal (x3 i)) (hx4 : ∀ i, IsReal (x4 i))
  (hx5 : ∀ i, IsReal (x5 i))

include hx0 in
/-- The aggregated features are real: a zero entry plus a finite sum of gathered feature entries. -/
theorem agg_real (p : Fin 100000) (k : Fin 128) : IsReal (aggF x0 x1 p k) := by
  unfold aggF val_main_v13
  refine isReal_scatterAdd _ _ _ _ (fun i => ?_) (fun j => ?_) _
  · show IsReal (Ideal.ofBits .f32 0x00000000#32); exact isReal_ofBits_zero
  · unfold val_main_v10; exact isReal_gather _ _ _ hx0 j

include hx0 hx2 hx3 hx4 in
/-- The kernel's hidden layer is real. -/
theorem hiddenKF_real (p : Fin 100000) (j : Fin 256) : IsReal (hiddenKF x0 x1 x2 x3 x4 p j) :=
  isReal_hiddenK _ _ _ _ _ _ _ (agg_real x0 x1 hx0) (fun p k => hx0 _)
    (fun p => isReal_inv _ _ ofBits_one (count_unit x1 p)) (fun j k => hx2 _) (fun j k => hx4 _) (fun j => hx3 _)
    isReal_ofBits_zero p j

/-! ## The two arrangements agree -/

/-- The hidden layer: the kernel's arrangement is the reference's (no condition on the features: the count alone
    must be a nonzero real). -/
theorem hiddenKF_eq : hiddenKF x0 x1 x2 x3 x4 = hiddenF x0 x1 x2 x3 x4 :=
  hiddenK_eq_hiddenR _ _ (countF x1) (invF x1) (Ideal.ofBits .f32 0x3F800000#32) _ _ _ _ (fun _ => rfl) ofBits_one
    (count_unit x1)

include hx0 hx2 hx3 hx4 hx5 in
/-- THE LOGITS: the kernel's arrangement is the reference's, over real features, weights and biases. -/
theorem logitsKF_eq : logitsKF x0 x1 x2 x3 x4 x5 x6 x7 = logitsF x0 x1 x2 x3 x4 x5 x6 x7 := by
  unfold logitsKF logitsF
  have hH : ∀ r k, IsReal (hiddenF x0 x1 x2 x3 x4 r k) := fun r k => by
    rw [← hiddenKF_eq]; exact hiddenKF_real x0 x1 x2 x3 x4 hx0 hx2 hx3 hx4 r k
  rw [hiddenKF_eq]
  exact logitsA_eq_logitsR _ _ _ (countF x1) (invF x1) (Ideal.ofBits .f32 0x3F800000#32) _ _ _ hH (fun q k => hx5 _)
    (fun _ => rfl) ofBits_one (count_unit x1)

end Cert.ReferenceIdeal.RefValue

end
-- ==== Proof.KernelValue.lean ====
/-
  The idealized kernel's result, entry by entry, over the same named pieces as the reference's.

  What the first region finds is the aggregated features, the node features, the reciprocal-count column, the two
  transposed weight matrices, the bias row and the second layer's transposed aggregation weights; so its hidden array is
  the kernel's arrangement of the hidden layer and its projected array that layer's product with the weights. What the
  second region finds is the projected rows gathered along the edges and added into the destination rows (the neighbour
  sum of the projection), the hidden array, the same column, and the transposed root weights and bias row; so the result
  is the row-wise log-softmax of the kernel's arrangement of the logits.
-/
import proofs.«117623_j21311627723552_2_alg».proof.Proof.Entry
import proofs.«117623_j21311627723552_2_alg».proof.Proof.Bridge
import Idealize.ShloMosaic.Lib.ValueLayout

set_option maxRecDepth 16384

noncomputable section

namespace Cert.KernelIdeal.KValue

open Cert.KernelIdeal Cert.KernelIdeal.Gen Cert.KernelIdeal.Entry Cert.Sage Cert.LibColumns Cert.LibColumn
open Idealize.ShloMosaic Idealize.ShloMosaic.TcCoe Idealize.ShloMosaic.ValueIdx Idealize.SL.Sem
open Cert.ReferenceIdeal.ReadP
open Cert.ReferenceIdeal.RefValue (aggF featF countF dstF srcF zeroW invF hiddenKF logitsKF)

variable (m : (ℓ : Loc nD τ sig) → Buf (Elt Ideal) ℓ) (ρ : Dev nD → PrngReg) (c : Dev nD)

theorem scatter64_eq : scatter_S100000x64_S640000x1_S640000x64_1_0_0_1
    = rowScatter 100000 640000 64 Facts₀.scatter_S100000x64_S640000x1_S640000x64_1_0_0_1_wf := rfl
theorem gather64_eq : gather_S100000x64_S640000x1_S640000x64_1_0_n_n_0_1_164
    = rowGather 100000 640000 64 Facts₀.gather_S100000x64_S640000x1_S640000x64_1_0_n_n_0_1_164_wf := rfl

/-- The host's quotient of two arrays, at an entry. -/
theorem hostDivf_apply {s : Shape} {φ : FTy} (a b : FVec Ideal s φ) (i : s.Idx) :
    Host.divf a b i = Ideal.div (a i) (b i) := rfl

/-! ## The first region -/

/-- The reciprocal-count column at row p. -/
theorem inv_at (p : Fin 100000) : V3 m ρ c main_v11 (ix2 p (0 : Fin 1)) = invF (m ((c : Thread nD τ).loc main_arg1)) p := by
  unfold invF countF
  rw [inv_entry, shapeCast_a_a1_apply, hostDivf_apply, bcastInDim_scalar_apply _ _ _ (fun a => a.elim0), constant_apply]

/-- The hidden layer of what the first region finds is the kernel's arrangement over the named pieces. -/
theorem hiddenFn_eq : Layer1.hiddenFn (V3 m ρ) c = hiddenKF (m ((c : Thread nD τ).loc main_arg0)) (m ((c : Thread nD τ).loc main_arg1)) (m ((c : Thread nD τ).loc main_arg2)) (m ((c : Thread nD τ).loc main_arg3)) (m ((c : Thread nD τ).loc main_arg4)) := by
  unfold Layer1.hiddenFn hiddenKF
  have hS : (fun (p : Fin 100000) (k : Fin 128) => V3 m ρ c main_v21 (ix2 p k)) = aggF (m ((c : Thread nD τ).loc main_arg0)) (m ((c : Thread nD τ).loc main_arg1)) := by
    funext p k; rw [agg_entry]; rfl
  have hX : (fun (p : Fin 100000) (k : Fin 128) => V3 m ρ c main_arg0 (ix2 p k)) = featF (m ((c : Thread nD τ).loc main_arg0)) := by
    funext p k; rw [feat_entry]; rfl
  have hI : (fun p : Fin 100000 => V3 m ρ c main_v11 (ix2 p (0 : Fin 1))) = invF (m ((c : Thread nD τ).loc main_arg1)) :=
    funext fun p => inv_at m ρ c p
  have hWa : (fun (j : Fin 256) (k : Fin 128) => V3 m ρ c main_v23 (ix2 k j))
      = fun j k => (m ((c : Thread nD τ).loc main_arg2)) (ix2 j k) := by
    funext j k; rw [wagg_entry, transpose_ix2_apply]; rfl
  have hWr : (fun (j : Fin 256) (k : Fin 128) => V3 m ρ c main_v25 (ix2 k j))
      = fun j k => (m ((c : Thread nD τ).loc main_arg4)) (ix2 j k) := by
    funext j k; rw [wroot_entry, transpose_ix2_apply]; rfl
  have hb : (fun j : Fin 256 => V3 m ρ c main_v28 (ix2 (0 : Fin 1) j)) = fun j => (m ((c : Thread nD τ).loc main_arg3)) (ix1 j) := by
    funext j; rw [bias_entry, shapeCast_a_1a_apply]
  rw [hS, hX, hI, hWa, hWr, hb]

/-- The projected array over the named pieces. -/
theorem projArr_at (r : Fin 100000) (q : Fin 64) :
    Layer1.projArr (V3 m ρ) c (ix2 r q) = proj (hiddenKF (m ((c : Thread nD τ).loc main_arg0)) (m ((c : Thread nD τ).loc main_arg1)) (m ((c : Thread nD τ).loc main_arg2)) (m ((c : Thread nD τ).loc main_arg3)) (m ((c : Thread nD τ).loc main_arg4))) (fun q k => (m ((c : Thread nD τ).loc main_arg5)) (ix2 q k)) r q := by
  have hW : (fun (q : Fin 64) (k : Fin 256) => V3 m ρ c main_v27 (ix2 k q)) = fun q k => (m ((c : Thread nD τ).loc main_arg5)) (ix2 q k) := by
    funext q k; rw [wagg2_entry, transpose_ix2_apply]; rfl
  show proj (Layer1.hiddenFn (V3 m ρ) c) (fun q k => V3 m ρ c main_v27 (ix2 k q)) r q = _
  rw [hiddenFn_eq, hW]

/-! ## The second region -/

/-- The aggregated projection at (p, q): the neighbour sum of the projected rows. -/
theorem sum2_at (p : Fin 100000) (q : Fin 64) :
    V5 m ρ c main_v39 (ix2 p q)
      = nbrSum (dstF (m ((c : Thread nD τ).loc main_arg1))) (srcF (m ((c : Thread nD τ).loc main_arg1))) (proj (hiddenKF (m ((c : Thread nD τ).loc main_arg0)) (m ((c : Thread nD τ).loc main_arg1)) (m ((c : Thread nD τ).loc main_arg2)) (m ((c : Thread nD τ).loc main_arg3)) (m ((c : Thread nD τ).loc main_arg4))) (fun q k => (m ((c : Thread nD τ).loc main_arg5)) (ix2 q k))) p q := by
  rw [sum2_entry, scatter64_eq, gather64_eq]
  refine (scatterAdd_rows_apply _ _ _ _ p q).trans ?_
  rw [bcastInDim_scalar_apply _ _ _ (fun a => a.elim0), constant_apply, Ideal.ofBits_zero_f32, zero_add]
  unfold nbrSum
  refine Finset.sum_congr rfl fun e _ => ?_
  rw [gather_rows_apply _ _ (by decide : 0 < 100000), projArr_at]
  rfl

/-- The logits of what the second region finds are the kernel's arrangement over the named pieces. -/
theorem logitsFn_eq : Layer2.logitsFn (V5 m ρ) c = logitsKF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Layer2.logitsFn logitsKF
  have h1 : (fun (p : Fin 100000) (q : Fin 64) => V5 m ρ c main_v39 (ix2 p q))
      = nbrSum (dstF (m ((c : Thread nD τ).loc main_arg1))) (srcF (m ((c : Thread nD τ).loc main_arg1))) (proj (hiddenKF (m ((c : Thread nD τ).loc main_arg0)) (m ((c : Thread nD τ).loc main_arg1)) (m ((c : Thread nD τ).loc main_arg2)) (m ((c : Thread nD τ).loc main_arg3)) (m ((c : Thread nD τ).loc main_arg4))) (fun q k => (m ((c : Thread nD τ).loc main_arg5)) (ix2 q k))) :=
    funext fun p => funext fun q => sum2_at m ρ c p q
  have h2 : (fun (p : Fin 100000) (k : Fin 256) => V5 m ρ c main_v29_0 (ix2 p k)) = hiddenKF (m ((c : Thread nD τ).loc main_arg0)) (m ((c : Thread nD τ).loc main_arg1)) (m ((c : Thread nD τ).loc main_arg2)) (m ((c : Thread nD τ).loc main_arg3)) (m ((c : Thread nD τ).loc main_arg4)) := by
    funext p k
    rw [hidden2_entry]
    show Layer1.hiddenFn (V3 m ρ) c p k = _
    rw [hiddenFn_eq]
  have h3 : (fun p : Fin 100000 => V5 m ρ c main_v11 (ix2 p (0 : Fin 1))) = invF (m ((c : Thread nD τ).loc main_arg1)) := by
    funext p; rw [inv2_entry]; exact inv_at m ρ c p
  have h4 : (fun (q : Fin 64) (k : Fin 256) => V5 m ρ c main_v41 (ix2 k q)) = fun q k => (m ((c : Thread nD τ).loc main_arg7)) (ix2 q k) := by
    funext q k; rw [wroot2_entry, transpose_ix2_apply]; rfl
  have h5 : (fun q : Fin 64 => V5 m ρ c main_v42 (ix2 (0 : Fin 1) q)) = fun q => (m ((c : Thread nD τ).loc main_arg6)) (ix1 q) := by
    funext q; rw [bias2_entry, shapeCast_a_1a_apply]
  rw [h1, h2, h3, h4, h5]

/-- THE KERNEL'S RESULT at (p, q): the log-softmax of row p of the kernel's arrangement of the logits. -/
theorem result_at (p : Fin 100000) (q : Fin 64) :
    W6 m ρ c (Proc.devRef .tc main_v43) (ix2 p q) = logSoftmax (logitsKF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) p) q := by
  rw [result_entry]
  show logSoftmax (Layer2.logitsFn (V5 m ρ) c p) q = _
  rw [logitsFn_eq]

end Cert.KernelIdeal.KValue

end
-- ==== Proof.RefRun.lean ====
/-
  The reference program's run, read back in three stages.

  The reference is ninety host operations in a row. Its run leaves every buffer at the fold of the operations' results
  over the launch contents. The result's composed term mentions the second layer's logits three times (the row maximum,
  the shifted logits, and through them the row sum) and the hidden layer twice inside each, so it is read here in three
  stages instead of as one term: the operations up to the hidden layer, those up to the logits, and the log-softmax. Each
  stage's buffers are read over the previous stage's contents as they stand, and each stage's result is the composed
  stage function `val_…` of the argument arrays.
-/
import proofs.«117623_j21311627723552_2_alg».proof.Proof.RefReadPatched

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a list of operations is running a prefix of it and then the rest. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_split (k : ℕ) (l : List (HloOp τ sig (Elt F))) (V : Valuation τ sig (Elt F)) :
    after l V = after (l.drop k) (after (l.take k) V) := by
  rw [← after_append, List.take_append_drop]

/-- Contents carried to a typed buffer's own type and back are unchanged (both carries are transports along the one
    type equation of the buffer, whatever it is). -/
theorem ofBuf_toBuf {T : BufTy} (x : TRef sig T) (v : T.Contents (Elt F)) : x.ofBuf (x.toBuf v) = v := by
  show cast _ (cast _ v) = v
  rw [cast_cast]; exact cast_eq _ _

/-- One simp pass reading a buffer after a literal stretch of the operation list. -/
macro "stage_results" : tactic =>
  `(tactic| (simp (disch := decide) only [ops, List.take_succ_cons, List.take_zero, List.drop_succ_cons, List.drop_zero,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (m : (ℓ : Loc nD τ sig) → Buf (Elt F) ℓ) (c : Dev nD)

/-- The buffers after the first 41 operations: everything up to the hidden layer `main_v30`. -/
def VA : Valuation τ sig (Elt F) := after ((ops (F := F)).take 41) (launchContents m c)
/-- The buffers after the next 34 operations: everything up to the logits `main_v56`. -/
def VB : Valuation τ sig (Elt F) := after (((ops (F := F)).drop 41).take 34) (VA m c)

/-! ## Stage one: up to the hidden layer -/

theorem stageA_hidden : VA m c (Proc.devRef .tc main_v30)
    = val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold VA; stage_results; rfl
theorem stageA_src : VA m c (Proc.devRef .tc main_v1) = val_main_v1 (F := F) (m ((c.tc : Thread nD τ).loc main_arg1)) := by
  unfold VA; stage_results; rfl
theorem stageA_dst : VA m c (Proc.devRef .tc main_v3) = val_main_v3 (F := F) (m ((c.tc : Thread nD τ).loc main_arg1)) := by
  unfold VA; stage_results; rfl
theorem stageA_arg5 : VA m c (Proc.devRef .tc main_arg5) = m ((c.tc : Thread nD τ).loc main_arg5) := by
  unfold VA; stage_results
theorem stageA_arg6 : VA m c (Proc.devRef .tc main_arg6) = m ((c.tc : Thread nD τ).loc main_arg6) := by
  unfold VA; stage_results
theorem stageA_arg7 : VA m c (Proc.devRef .tc main_arg7) = m ((c.tc : Thread nD τ).loc main_arg7) := by
  unfold VA; stage_results

/-! ## Stage two: up to the logits -/

theorem stageB_logits : VB m c (Proc.devRef .tc main_v56)
    = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold VB; stage_results
  rw [stageA_hidden, stageA_src, stageA_dst, stageA_arg5, stageA_arg6, stageA_arg7]
  rfl

/-! ## Stage three: the log-softmax -/

theorem stageC_result : after (((ops (F := F)).drop 41).drop 34) (VB m c) (Proc.devRef .tc main_v57)
    = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  stage_results
  simp only [ofBuf_toBuf]
  have e56 : (TRef.of (T := ⟨S100000x64, .f32⟩) main_v56).ofBuf (VB m c (Proc.devRef .tc main_v56))
      = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    (eq_of_heq (cast_heq _ _)).trans (stageB_logits m c)
  rw [e56]
  refine (eq_of_heq (cast_heq _ _)).trans ?_
  rfl

/-- The result buffer after all ninety operations is the composed stage function of the argument arrays. -/
theorem result_eq : after (ops (F := F)) (launchContents m c) (Proc.devRef .tc main_v57)
    = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_split 41 ops, after_split 34 (List.drop 41 ops)]
  exact stageC_result m c

/-! ## The run -/

set_option maxHeartbeats 36000000 in
/-- Every weakly fair execution of the reference terminates with the result at the composed stage function of the
    argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v57).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.LibHostRowMax.lean ====
/-
  The host's maximum along the second axis of an a×b array of extended reals, read at row p: the fold of `max` over
  the row from the initial value. For any extents; the reducing function is given up to an equation with `max`, so that
  an instance's own spelling of the maximum fits.
-/
import proofs.«117623_j21311627723552_2_alg».proof.Proof.LibRowReduce
import Idealize.ShloMosaic.PureOps.Reduce
import Idealize.ShloMosaic.PureOps.Ideal
import Idealize.ShloMosaic.Lib.ValueIdx

noncomputable section

namespace Cert.LibHostRowMax

open Idealize.ShloMosaic Idealize.ShloMosaic.ValueIdx Cert.LibRowReduce

variable {a b : ℕ}

/-- THE HOST'S ROW MAXIMUM at row `p`. -/
theorem hostRowMax_apply (f : EReal → EReal → EReal) (hf : f = max) (x : (⟨2, ![a, b]⟩ : Shape).Idx → EReal)
    (init : (⟨0, ![]⟩ : Shape).Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce f x init h' hu (ix1 p)
      = (Finset.univ : Finset (Fin b)).fold max (init (Shape.Idx.first hu)) (fun k => x (ix2 p k)) := by
  subst hf
  rw [Host.reduce_eq_fold_single max x init h' h hu (ix1 p)]
  exact congrArg (fun g : Fin b → EReal => (Finset.univ : Finset (Fin b)).fold max (init (Shape.Idx.first hu)) g)
    (funext fun k => congrArg x (lift_row h p k))

end Cert.LibHostRowMax

end
-- ==== Proof.RefSoftmax.lean ====
/-
  The reference's log-softmax, read at an entry.

  The reference takes the row maximum of the logits by a host reduction from the word of minus infinity, takes the
  larger of that word and the maximum once more, subtracts it from the logits, and subtracts the logarithm of the row
  sum (started from the zero word) of the exponentials of the shifted logits. Entry (p, q) of the result is the
  log-softmax of row p of the logits at q.
-/
import proofs.«117623_j21311627723552_2_alg».proof.Proof.RefValue
import proofs.«117623_j21311627723552_2_alg».proof.Proof.LibHostRowMax

set_option maxRecDepth 16384

noncomputable section

namespace Cert.ReferenceIdeal.RefValue

open Cert.ReferenceIdeal Cert.ReferenceIdeal.Gen Cert.ReferenceIdeal.ReadP Cert.Sage Cert.LibHostRowMax
open Idealize.ShloMosaic Idealize.ShloMosaic.ValueIdx

variable (x0 : (⟨S100000x128, .f32⟩ : BufTy).Contents (Elt Ideal)) (x1 : (⟨S2x640000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S64x256, .f32⟩ : BufTy).Contents (Elt Ideal)) (x6 : (⟨S64, .f32⟩ : BufTy).Contents (Elt Ideal)) (x7 : (⟨S64x256, .f32⟩ : BufTy).Contents (Elt Ideal))

/-- The row maximum of the logits, as the host's reduction computes it. -/
theorem rowmax_apply (p : Fin 100000) :
    val_main_call3_v0 (F := Ideal) x0 x1 x2 x3 x4 x5 x6 x7 (ix1 p) = rowMax (logitsF x0 x1 x2 x3 x4 x5 x6 x7 p) := by
  unfold val_main_call3_v0
  refine (hostRowMax_apply (FloatOps.maximumf (F := Ideal) (φ := .f32)) rfl _ _ reducesTo_S100000x64_S100000_d1
    (by decide) h_S_ p).trans ?_
  unfold rowMax
  refine congrArg (fun g : Fin 64 → EReal => (Finset.univ : Finset (Fin 64)).fold max (Ideal.ofBits .f32 0xFF800000#32) g)
    (funext fun k => ?_)
  exact logits_apply x0 x1 x2 x3 x4 x5 x6 x7 p k

/-- The logits shifted by their row maximum, at (p, k). -/
theorem shifted_apply (p : Fin 100000) (k : Fin 64) :
    val_main_call3_v5 (F := Ideal) x0 x1 x2 x3 x4 x5 x6 x7 (ix2 p k)
      = logitsF x0 x1 x2 x3 x4 x5 x6 x7 p k - max (Ideal.ofBits .f32 0xFF800000#32) (rowMax (logitsF x0 x1 x2 x3 x4 x5 x6 x7 p)) := by
  have e1 : idx_main_call3_v4 (ix2 p k) = ix2 p (0 : Fin 1) := funext fun a => Fin.ext (by match a with | ⟨0, _⟩ => rfl | ⟨1, _⟩ => rfl)
  have e2 : idx_main_call3_v3 (ix2 p (0 : Fin 1)) = ix1 p := funext fun a => Fin.ext (by match a with | ⟨0, _⟩ => rfl)
  rw [val_main_call3_v5_apply, val_main_call3_v4_apply, e1, val_main_call3_v3_apply, e2, val_main_call3_v2_apply,
    val_main_call3_v1_apply, val_main_call3_cst_0_apply, rowmax_apply, logits_apply]
  rfl

/-- THE REFERENCE'S RESULT at (p, q): the log-softmax of row p of the logits. -/
theorem out_apply (p : Fin 100000) (q : Fin 64) :
    val_main_v57 (F := Ideal) x0 x1 x2 x3 x4 x5 x6 x7 (ix2 p q) = logSoftmax (logitsF x0 x1 x2 x3 x4 x5 x6 x7 p) q := by
  have e3 : idx_main_call3_v10 (ix2 p q) = ix2 p (0 : Fin 1) := funext fun a => Fin.ext (by match a with | ⟨0, _⟩ => rfl | ⟨1, _⟩ => rfl)
  have e4 : idx_main_call3_v8 (ix2 p (0 : Fin 1)) = ix1 p := funext fun a => Fin.ext (by match a with | ⟨0, _⟩ => rfl)
  have e5 : ∀ k : Fin 64, idx_main_call3_v7 (ix1 p) k = ix2 p k := fun k => funext fun a => Fin.ext (by match a with | ⟨0, _⟩ => rfl | ⟨1, _⟩ => rfl)
  rw [val_main_v57_apply, shifted_apply, val_main_call3_v10_apply, e3, val_main_call3_v9_apply, val_main_call3_v8_apply,
    e4, val_main_call3_v7_apply, val_main_call3_cst_1_apply]
  have e6 : ∀ k : Fin 64, val_main_call3_v6 (F := Ideal) x0 x1 x2 x3 x4 x5 x6 x7 (idx_main_call3_v7 (ix1 p) k)
      = Ideal.exp (logitsF x0 x1 x2 x3 x4 x5 x6 x7 p k - max (Ideal.ofBits .f32 0xFF800000#32) (rowMax (logitsF x0 x1 x2 x3 x4 x5 x6 x7 p))) := fun k => by
    rw [e5, val_main_call3_v6_apply, shifted_apply, Ideal.hostUnary_exp_def]
  simp only [e6, Ideal.subf_def, Ideal.hostUnary_log_def, Ideal.ofBits_def]
  exact logSoftmax_host (logitsF x0 x1 x2 x3 x4 x5 x6 x7 p) q

end Cert.ReferenceIdeal.RefValue

end
-- ==== Proof.Finite.lean ====
/-
  The precondition, read: every float argument array holds real numbers.

  The precondition is a conjunction of seven `all(|a| < +inf)` tests, one per float argument. Each test being 1 says
  every entry of its array has absolute value below the word of plus infinity, which on the extended reals says the
  entry is neither infinity: a real number.
-/
import proofs.«117623_j21311627723552_2_alg».proof.Pre_finite_inputs
import proofs.«117623_j21311627723552_2_alg».proof.Proof.Gen.Pre_finite_inputs
import proofs.«117623_j21311627723552_2_alg».proof.Proof.LibFinite
import Idealize.ShloMosaic.Lib.ReduceAll
import Idealize.ShloMosaic.Lib.ValueIdx

noncomputable section

namespace Cert.Pre_finite_inputs.Finite

open Cert.Pre_finite_inputs Idealize.ShloMosaic Idealize.ShloMosaic.LibFinite

instance : Subsingleton S_.Idx := ⟨fun a b => funext fun d => d.elim0⟩

/-- The word `0x7F800000` denotes plus infinity. -/
theorem top_word : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) : IsReal x := by
  rw [top_word] at h
  unfold Ideal.cmp at h
  have hlt : max x (-x) < ⊤ := by
    by_contra hn
    simp [hn] at h
  induction x using EReal.rec with
  | bot => simp at hlt
  | coe r => exact ⟨r, rfl⟩
  | top => simp at hlt

/-- An entry whose test is 1 is real. -/
theorem elem {s : Shape} (x : FVec Ideal s .f32) (hb : (S_ : Shape).BroadcastsInDim s ![]) (i : s.Idx)
    (h : cmpf .olt (Host.absf x) (broadcastInDim s ![] hb (constant (F := Ideal) S_ .f32 0x7F800000#32)) i = 1#1) :
    IsReal (x i) :=
  real_of_abs_lt _ h

/-- THE PRECONDITION READ: all seven float arrays hold real numbers. -/
theorem real_of_pre (a0 : FVec Ideal S100000x128 .f32) (a1 : IVec S2x640000 32) (a2 : FVec Ideal S256x128 .f32)
    (a3 : FVec Ideal S256 .f32) (a4 : FVec Ideal S256x128 .f32) (a5 : FVec Ideal S64x256 .f32) (a6 : FVec Ideal S64 .f32)
    (a7 : FVec Ideal S64x256 .f32) (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have e := congrFun h (fun a => a.elim0)
  dsimp only [fn, fn_part1, andi] at e
  simp only [IntOp.andi_eq_one] at e
  obtain ⟨⟨⟨⟨⟨⟨e0, e2⟩, e3⟩, e4⟩, e5⟩, e6⟩, e7⟩ := e
  exact ⟨fun i => elem a0 _ i (Host.reduce_andi_all _ _ _ _ _ e0 i),
    fun i => elem a2 _ i (Host.reduce_andi_all _ _ _ _ _ e2 i),
    fun i => elem a3 _ i (Host.reduce_andi_all _ _ _ _ _ e3 i),
    fun i => elem a4 _ i (Host.reduce_andi_all _ _ _ _ _ e4 i),
    fun i => elem a5 _ i (Host.reduce_andi_all _ _ _ _ _ e5 i),
    fun i => elem a6 _ i (Host.reduce_andi_all _ _ _ _ _ e6 i),
    fun i => elem a7 _ i (Host.reduce_andi_all _ _ _ _ _ e7 i)⟩

end Cert.Pre_finite_inputs.Finite

end
-- ==== Proof.lean ====
/-
  The certificate: a two-layer mean-aggregation graph network with a row-wise log-softmax, computed by two pipelined
  kernels among host gathers and scatter-adds, against the plain reference.

  * The two kernel programs' frames are the generated frame certificates (two class-A regions each); the reference's
    frame is its run with the result dropped.
  * The ideal pass rewrote nothing, so the idealization claim is trivial.
  * At the ideal instance both programs end with the row-wise log-softmax of the same logits. The kernel's result array
    is read off its run region by region (the result buffer at the last boundary's contents; each region's output array
    the whole-array function of what the region found; the host stretches in between read as terms of the argument
    arrays); the reference's result is its stage functions read at an entry. The kernel multiplies by the reciprocal of
    the bounded edge count where the reference divides, and projects the hidden rows before aggregating them along
    the edges where the reference aggregates and then projects; over real inputs — which is what the precondition says
    — these are the same numbers: the count is a nonzero real, and a finite sum commutes with the product and with the
    other finite sum over real entries.
-/
import proofs.«117623_j21311627723552_2_alg».proof.Defs
import proofs.«117623_j21311627723552_2_alg».proof.Proof.Gen.Kernel
import proofs.«117623_j21311627723552_2_alg».proof.Proof.Gen.Kernel.Frame
import proofs.«117623_j21311627723552_2_alg».proof.Proof.Gen.KernelIdeal
import proofs.«117623_j21311627723552_2_alg».proof.Proof.Gen.KernelIdeal.Frame
import proofs.«117623_j21311627723552_2_alg».proof.Proof.Gen.ReferenceIdeal
import proofs.«117623_j21311627723552_2_alg».proof.Proof.Gen.Pre_finite_inputs
import proofs.«117623_j21311627723552_2_alg».proof.Proof.KernelRun
import proofs.«117623_j21311627723552_2_alg».proof.Proof.KernelValue
import proofs.«117623_j21311627723552_2_alg».proof.Proof.RefRun
import proofs.«117623_j21311627723552_2_alg».proof.Proof.RefValue
import proofs.«117623_j21311627723552_2_alg».proof.Proof.RefSoftmax
import proofs.«117623_j21311627723552_2_alg».proof.Proof.Bridge
import proofs.«117623_j21311627723552_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the log-softmax of one and the same array of logits. -/
theorem algebraic : Cert.algebraic_KernelIdeal_ReferenceIdeal := by
  intro m g m' g' hpre hagree
  refine ⟨fun c => Cert.KernelIdeal.Gen.W6 m g c (Proc.devRef .tc Cert.KernelIdeal.main_v43),
    Cert.KernelIdeal.Run.run_value m g, ?_⟩
  refine (θ_run Cert.ReferenceIdeal.defs _ _).mono (fun _ h c => ⟨(h c).1.trans ?_, (h c).2⟩)
    (Cert.ReferenceIdeal.RefRun.run (F := Ideal) m' g')
  obtain ⟨a0, a1, a2, a3, a4, a5, a6, a7⟩ := hagree c
  rw [a0, a1, a2, a3, a4, a5, a6, a7]
  obtain ⟨r0, r2, r3, r4, r5, r6, r7⟩ := Cert.Pre_finite_inputs.Finite.real_of_pre _ _ _ _ _ _ _ _ (hpre c)
  funext i
  obtain ⟨p, q, rfl⟩ : ∃ (p : Fin 100000) (q : Fin 64), i = ix2 p q := ⟨i 0, i 1, eq_ix2 i⟩
  rw [Cert.ReferenceIdeal.RefValue.out_apply]
  refine Eq.trans ?_ (Cert.KernelIdeal.KValue.result_at m g c p q).symm
  rw [Cert.ReferenceIdeal.RefValue.logitsKF_eq _ _ _ _ _ _ _ _ r0 r2 r3 r4 r5]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
